-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S1x512x512 : Shape := ⟨3, ![1, 512, 512]⟩
abbrev S1 : Shape := ⟨1, ![1]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S1x512x512 : S_.BroadcastsInDim S1x512x512 (![] : Fin 0 → Fin S1x512x512.rank)
  reducesTo_S1x512x512_S_d0_1_2 : S1x512x512.ReducesTo [0, 1, 2] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x512x512 1) : IVec S_ 1 :=
  let main_c_5 : IVec S_ 1 := constantI S_ 1 1#1
  let main_v17 : IVec S_ 1 := (fun x v => Host.reduce IntOp.andi x v reducesTo_S1x512x512_S_d0_1_2 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8x2048x512 .f32) (main_arg1 : FVec F S1x512x512 .f32) (main_arg2 : FVec F S1 .f32) (main_arg3 : FVec F S1x512x512 .f32) (main_arg4 : FVec F S1 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S1x512x512 .f32 := Host.absf main_arg1
  let main_cst_0 : FVec F S_ .f32 := constant S_ .f32 0x7F800000#32
  let main_v5 : FVec F S1x512x512 .f32 := broadcastInDim S1x512x512 ![] bcast_S_S1x512x512 main_cst_0
  let main_v6 : IVec S1x512x512 1 := cmpf .olt main_v4 main_v5
  let main_c_1 : IVec S_ 1 := constantI S_ 1 1#1
  let main_v7 : IVec S_ 1 := (fun x v => Host.reduce IntOp.andi x v reducesTo_S1x512x512_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1x512x512 .f32 := Host.absf main_arg3
  let main_cst_4 : FVec F S_ .f32 := constant S_ .f32 0x7F800000#32
  let main_v15 : FVec F S1x512x512 .f32 := broadcastInDim S1x512x512 ![] bcast_S_S1x512x512 main_cst_4
  let main_v16 : IVec S1x512x512 1 := cmpf .olt main_v14 main_v15
  fn_part1 (F := F) main_arg4 main_v13 main_v16
-- ==== Kernel.lean ====
abbrev S8x2048x512 : Shape := ⟨3, ![8, 2048, 512]⟩
abbrev S1x512x512 : Shape := ⟨3, ![1, 512, 512]⟩
abbrev S1 : Shape := ⟨1, ![1]⟩
abbrev S1x2048x512 : Shape := ⟨3, ![1, 2048, 512]⟩
abbrev S2048x2048 : Shape := ⟨2, ![2048, 2048]⟩
abbrev S2048x1 : Shape := ⟨2, ![2048, 1]⟩
abbrev S2048x512 : Shape := ⟨2, ![2048, 512]⟩
abbrev S2048 : Shape := ⟨1, ![2048]⟩
abbrev S1x2048 : Shape := ⟨2, ![1, 2048]⟩
abbrev S512x512 : Shape := ⟨2, ![512, 512]⟩
abbrev S1x256x512 : Shape := ⟨3, ![1, 256, 512]⟩
abbrev S256x512 : Shape := ⟨2, ![256, 512]⟩
abbrev S256x1 : Shape := ⟨2, ![256, 1]⟩
abbrev S256x2048 : Shape := ⟨2, ![256, 2048]⟩
abbrev S256 : Shape := ⟨1, ![256]⟩

abbrev nBuf : Space → Nat
  | .hbm => 6
  | .vmem => 11
  | .smem => 0
  | _ => 0

abbrev bufTy : (tb : Table) → Fin (tcTables nBuf tb) → BufTy
  | .hbm, ⟨0, _⟩ => ⟨S8x2048x512, .f32⟩
  | .hbm, ⟨1, _⟩ => ⟨S1x512x512, .f32⟩
  | .hbm, ⟨2, _⟩ => ⟨S1, .f32⟩
  | .hbm, ⟨3, _⟩ => ⟨S1x512x512, .f32⟩
  | .hbm, ⟨4, _⟩ => ⟨S1, .f32⟩
  | .hbm, ⟨5, _⟩ => ⟨S8x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S1x512x512, .f32⟩
  | .local _ .vmem, ⟨3, _⟩ => ⟨S1, .f32⟩
  | .local _ .vmem, ⟨4, _⟩ => ⟨S1x512x512, .f32⟩
  | .local _ .vmem, ⟨5, _⟩ => ⟨S1, .f32⟩
  | .local _ .vmem, ⟨6, _⟩ => ⟨S1x2048x512, .f32⟩
  | .local _ .vmem, ⟨7, _⟩ => ⟨S1x2048x512, .f32⟩
  | .local _ .vmem, ⟨8, _⟩ => ⟨S2048x2048, .bf16⟩
  | .local _ .vmem, ⟨9, _⟩ => ⟨S2048x1, .f32⟩
  | .local _ .vmem, ⟨10, _⟩ => ⟨S2048x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  reduces_S2048x512_S2048 : S2048x512.Reduces [1] S2048
  shapeCasts_S2048_S2048x1 : S2048.ShapeCasts S2048x1
  transposes_S2048x1_p1_0_S1x2048 : S2048x1.Transposes [1, 0] S1x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1_S1_0 : ∀ a, (![0] : Fin 1 → Nat) a + S1.size a ≤ S1.size a
  h_S1 : 0 < S1.numel
  inpos_S1_p0 : ∀ a, (![0] : Fin 1 → Nat) a < S1.size a
  inb_S1x2048x512_S1x256x512_0_0_0 : ∀ a, (![0, 0, 0] : Fin 3 → Nat) a + S1x256x512.size a ≤ S1x2048x512.size a
  h_S1x256x512 : 0 < S1x256x512.numel
  shapeCasts_S1x256x512_S256x512 : S1x256x512.ShapeCasts S256x512
  slices_S2048x1_o0_0_S256x1 : S2048x1.Slices ![0, 0] S256x1
  broadcasts_S256x1_S256x2048 : S256x1.Broadcasts S256x2048
  broadcasts_S1x2048_S256x2048 : S1x2048.Broadcasts S256x2048
  inb_S2048x2048_S256x2048_0_0 : ∀ a, (![0, 0] : Fin 2 → Nat) a + S256x2048.size a ≤ S2048x2048.size a
  h_S256x2048 : 0 < S256x2048.numel
  shapeCasts_S256x2048_S256x2048 : S256x2048.ShapeCasts S256x2048
  packedbf16_S2048x2048_S256x2048_0_0 : (Rect.unit (s := S2048x2048) ![0, 0] S256x2048.size inb_S2048x2048_S256x2048_0_0).PackedRows (EltTy.packing .bf16)
  reduces_S256x2048_S256 : S256x2048.Reduces [1] S256
  shapeCasts_S256_S256x1 : S256.ShapeCasts S256x1
  inb_S2048x1_S256x1_0_0 : ∀ a, (![0, 0] : Fin 2 → Nat) a + S256x1.size a ≤ S2048x1.size a
  h_S256x1 : 0 < S256x1.numel
  shapeCasts_S256x1_S256x1 : S256x1.ShapeCasts S256x1
  inb_S1x2048x512_S1x256x512_0_256_0 : ∀ a, (![0, 256, 0] : Fin 3 → Nat) a + S1x256x512.size a ≤ S1x2048x512.size a
  slices_S2048x1_o256_0_S256x1 : S2048x1.Slices ![256, 0] S256x1
  inb_S2048x2048_S256x2048_256_0 : ∀ a, (![256, 0] : Fin 2 → Nat) a + S256x2048.size a ≤ S2048x2048.size a
  packedbf16_S2048x2048_S256x2048_256_0 : (Rect.unit (s := S2048x2048) ![256, 0] S256x2048.size inb_S2048x2048_S256x2048_256_0).PackedRows (EltTy.packing .bf16)
  inb_S2048x1_S256x1_256_0 : ∀ a, (![256, 0] : Fin 2 → Nat) a + S256x1.size a ≤ S2048x1.size a
  inb_S1x2048x512_S1x256x512_0_512_0 : ∀ a, (![0, 512, 0] : Fin 3 → Nat) a + S1x256x512.size a ≤ S1x2048x512.size a
  slices_S2048x1_o512_0_S256x1 : S2048x1.Slices ![512, 0] S256x1
  inb_S2048x2048_S256x2048_512_0 : ∀ a, (![512, 0] : Fin 2 → Nat) a + S256x2048.size a ≤ S2048x2048.size a
  packedbf16_S2048x2048_S256x2048_512_0 : (Rect.unit (s := S2048x2048) ![512, 0] S256x2048.size inb_S2048x2048_S256x2048_512_0).PackedRows (EltTy.packing .bf16)
  inb_S2048x1_S256x1_512_0 : ∀ a, (![512, 0] : Fin 2 → Nat) a + S256x1.size a ≤ S2048x1.size a
  inb_S1x2048x512_S1x256x512_0_768_0 : ∀ a, (![0, 768, 0] : Fin 3 → Nat) a + S1x256x512.size a ≤ S1x2048x512.size a
  slices_S2048x1_o768_0_S256x1 : S2048x1.Slices ![768, 0] S256x1
  inb_S2048x2048_S256x2048_768_0 : ∀ a, (![768, 0] : Fin 2 → Nat) a + S256x2048.size a ≤ S2048x2048.size a
  packedbf16_S2048x2048_S256x2048_768_0 : (Rect.unit (s := S2048x2048) ![768, 0] S256x2048.size inb_S2048x2048_S256x2048_768_0).PackedRows (EltTy.packing .bf16)
  inb_S2048x1_S256x1_768_0 : ∀ a, (![768, 0] : Fin 2 → Nat) a + S256x1.size a ≤ S2048x1.size a
  inb_S1x2048x512_S1x256x512_0_1024_0 : ∀ a, (![0, 1024, 0] : Fin 3 → Nat) a + S1x256x512.size a ≤ S1x2048x512.size a
  slices_S2048x1_o1024_0_S256x1 : S2048x1.Slices ![1024, 0] S256x1
  inb_S2048x2048_S256x2048_1024_0 : ∀ a, (![1024, 0] : Fin 2 → Nat) a + S256x2048.size a ≤ S2048x2048.size a
  packedbf16_S2048x2048_S256x2048_1024_0 : (Rect.unit (s := S2048x2048) ![1024, 0] S256x2048.size inb_S2048x2048_S256x2048_1024_0).PackedRows (EltTy.packing .bf16)
  inb_S2048x1_S256x1_1024_0 : ∀ a, (![1024, 0] : Fin 2 → Nat) a + S256x1.size a ≤ S2048x1.size a
  inb_S1x2048x512_S1x256x512_0_1280_0 : ∀ a, (![0, 1280, 0] : Fin 3 → Nat) a + S1x256x512.size a ≤ S1x2048x512.size a
  slices_S2048x1_o1280_0_S256x1 : S2048x1.Slices ![1280, 0] S256x1
  inb_S2048x2048_S256x2048_1280_0 : ∀ a, (![1280, 0] : Fin 2 → Nat) a + S256x2048.size a ≤ S2048x2048.size a
  packedbf16_S2048x2048_S256x2048_1280_0 : (Rect.unit (s := S2048x2048) ![1280, 0] S256x2048.size inb_S2048x2048_S256x2048_1280_0).PackedRows (EltTy.packing .bf16)
  inb_S2048x1_S256x1_1280_0 : ∀ a, (![1280, 0] : Fin 2 → Nat) a + S256x1.size a ≤ S2048x1.size a
  inb_S1x2048x512_S1x256x512_0_1536_0 : ∀ a, (![0, 1536, 0] : Fin 3 → Nat) a + S1x256x512.size a ≤ S1x2048x512.size a
  slices_S2048x1_o1536_0_S256x1 : S2048x1.Slices ![1536, 0] S256x1
  inb_S2048x2048_S256x2048_1536_0 : ∀ a, (![1536, 0] : Fin 2 → Nat) a + S256x2048.size a ≤ S2048x2048.size a
  packedbf16_S2048x2048_S256x2048_1536_0 : (Rect.unit (s := S2048x2048) ![1536, 0] S256x2048.size inb_S2048x2048_S256x2048_1536_0).PackedRows (EltTy.packing .bf16)
  inb_S2048x1_S256x1_1536_0 : ∀ a, (![1536, 0] : Fin 2 → Nat) a + S256x1.size a ≤ S2048x1.size a
  inb_S1x2048x512_S1x256x512_0_1792_0 : ∀ a, (![0, 1792, 0] : Fin 3 → Nat) a + S1x256x512.size a ≤ S1x2048x512.size a
  slices_S2048x1_o1792_0_S256x1 : S2048x1.Slices ![1792, 0] S256x1
  inb_S2048x2048_S256x2048_1792_0 : ∀ a, (![1792, 0] : Fin 2 → Nat) a + S256x2048.size a ≤ S2048x2048.size a
  packedbf16_S2048x2048_S256x2048_1792_0 : (Rect.unit (s := S2048x2048) ![1792, 0] S256x2048.size inb_S2048x2048_S256x2048_1792_0).PackedRows (EltTy.packing .bf16)
  inb_S2048x1_S256x1_1792_0 : ∀ a, (![1792, 0] : Fin 2 → Nat) a + S256x1.size a ≤ S2048x1.size a
  inb_S2048x1_S2048x1_0_0 : ∀ a, (![0, 0] : Fin 2 → Nat) a + S2048x1.size a ≤ S2048x1.size a
  h_S2048x1 : 0 < S2048x1.numel
  inb_S2048x512_S256x512_0_0 : ∀ a, (![0, 0] : Fin 2 → Nat) a + S256x512.size a ≤ S2048x512.size a
  h_S256x512 : 0 < S256x512.numel
  shapeCasts_S256x512_S256x512 : S256x512.ShapeCasts S256x512
  packedbf16_S2048x512_S256x512_0_0 : (Rect.unit (s := S2048x512) ![0, 0] S256x512.size inb_S2048x512_S256x512_0_0).PackedRows (EltTy.packing .bf16)
  inb_S2048x512_S256x512_256_0 : ∀ a, (![256, 0] : Fin 2 → Nat) a + S256x512.size a ≤ S2048x512.size a
  packedbf16_S2048x512_S256x512_256_0 : (Rect.unit (s := S2048x512) ![256, 0] S256x512.size inb_S2048x512_S256x512_256_0).PackedRows (EltTy.packing .bf16)
  inb_S2048x512_S256x512_512_0 : ∀ a, (![512, 0] : Fin 2 → Nat) a + S256x512.size a ≤ S2048x512.size a
  packedbf16_S2048x512_S256x512_512_0 : (Rect.unit (s := S2048x512) ![512, 0] S256x512.size inb_S2048x512_S256x512_512_0).PackedRows (EltTy.packing .bf16)
  inb_S2048x512_S256x512_768_0 : ∀ a, (![768, 0] : Fin 2 → Nat) a + S256x512.size a ≤ S2048x512.size a
  packedbf16_S2048x512_S256x512_768_0 : (Rect.unit (s := S2048x512) ![768, 0] S256x512.size inb_S2048x512_S256x512_768_0).PackedRows (EltTy.packing .bf16)
  inb_S2048x512_S256x512_1024_0 : ∀ a, (![1024, 0] : Fin 2 → Nat) a + S256x512.size a ≤ S2048x512.size a
  packedbf16_S2048x512_S256x512_1024_0 : (Rect.unit (s := S2048x512) ![1024, 0] S256x512.size inb_S2048x512_S256x512_1024_0).PackedRows (EltTy.packing .bf16)
  inb_S2048x512_S256x512_1280_0 : ∀ a, (![1280, 0] : Fin 2 → Nat) a + S256x512.size a ≤ S2048x512.size a
  packedbf16_S2048x512_S256x512_1280_0 : (Rect.unit (s := S2048x512) ![1280, 0] S256x512.size inb_S2048x512_S256x512_1280_0).PackedRows (EltTy.packing .bf16)
  inb_S2048x512_S256x512_1536_0 : ∀ a, (![1536, 0] : Fin 2 → Nat) a + S256x512.size a ≤ S2048x512.size a
  packedbf16_S2048x512_S256x512_1536_0 : (Rect.unit (s := S2048x512) ![1536, 0] S256x512.size inb_S2048x512_S256x512_1536_0).PackedRows (EltTy.packing .bf16)
  inb_S2048x512_S256x512_1792_0 : ∀ a, (![1792, 0] : Fin 2 → Nat) a + S256x512.size a ≤ S2048x512.size a
  packedbf16_S2048x512_S256x512_1792_0 : (Rect.unit (s := S2048x512) ![1792, 0] S256x512.size inb_S2048x512_S256x512_1792_0).PackedRows (EltTy.packing .bf16)
  inb_S2048x512_S2048x512_0_0 : ∀ a, (![0, 0] : Fin 2 → Nat) a + S2048x512.size a ≤ S2048x512.size a
  h_S2048x512 : 0 < S2048x512.numel
  shapeCasts_S256x512_S1x256x512 : S256x512.ShapeCasts S1x256x512
  dot_S256x512_S2048x512_S256x2048_1_1_0_0_n_n_wf : DotDims.WF S256x512 S2048x512 S256x2048 [1] [1] [0] [0] [] []
  dot_S256x2048_S2048x512_S256x512_1_0_0_1_n_n_wf : DotDims.WF S256x2048 S2048x512 S256x512 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S1x512x512.size a
  hwx0_1 : ∀ i : grid0.Coords, EltTy.bits .f32 = 32 ∨ (Rect.block (s := S1x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S1x512x512.size a
  hwx0_3 : ∀ i : grid0.Coords, EltTy.bits .f32 = 32 ∨ (Rect.block (s := S1x512x512) S1x512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x512.size a ≤ S8x2048x512.size a
  hwx0_5 : ∀ i : grid0.Coords, EltTy.bits .f32 = 32 ∨ (Rect.block (s := S8x2048x512) S1x2048x512.size (cc0_transform_5 i) (hinb0_5 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S1x512x512 : Shape := ⟨3, ![1, 512, 512]⟩
abbrev S1 : Shape := ⟨1, ![1]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S8x1x2048 : Shape := ⟨3, ![8, 1, 2048]⟩
abbrev S512x512 : Shape := ⟨2, ![512, 512]⟩
abbrev S1x1x1 : Shape := ⟨3, ![1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S1x512x512, .f32⟩
  | .hbm, ⟨2, _⟩ => ⟨S1, .f32⟩
  | .hbm, ⟨3, _⟩ => ⟨S1x512x512, .f32⟩
  | .hbm, ⟨4, _⟩ => ⟨S1, .f32⟩
  | .hbm, ⟨5, _⟩ => ⟨S8x2048x512, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S8x2048x1, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .i1⟩
  | .hbm, ⟨19, _⟩ => ⟨S_, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x1x2048, .f32⟩
  | .hbm, ⟨36, _⟩ => ⟨S8x2048x2048, .f32⟩
  | .hbm, ⟨37, _⟩ => ⟨S8x2048x2048, .f32⟩
  | .hbm, ⟨38, _⟩ => ⟨S8x2048x512, .f32⟩
  | .hbm, ⟨39, _⟩ => ⟨S512x512, .f32⟩
  | .hbm, ⟨40, _⟩ => ⟨S8x2048x512, .f32⟩
  | .hbm, ⟨41, _⟩ => ⟨S1x1x1, .f32⟩
  | .hbm, ⟨42, _⟩ => ⟨S8x2048x512, .f32⟩
  | .hbm, ⟨43, _⟩ => ⟨S8x2048x512, .f32⟩
  | .hbm, ⟨44, _⟩ => ⟨S_, .f32⟩
  | .hbm, ⟨45, _⟩ => ⟨S8x2048x512, .f32⟩
  | .hbm, ⟨46, _⟩ => ⟨S8x2048x512, .f32⟩
  | .hbm, ⟨47, _⟩ => ⟨S8x2048x512, .f32⟩
  | .hbm, ⟨48, _⟩ => ⟨S512x512, .f32⟩
  | .hbm, ⟨49, _⟩ => ⟨S8x2048x512, .f32⟩
  | .hbm, ⟨50, _⟩ => ⟨S1x1x1, .f32⟩
  | .hbm, ⟨51, _⟩ => ⟨S8x2048x512, .f32⟩
  | .hbm, ⟨52, _⟩ => ⟨S8x2048x512, .f32⟩
  | .hbm, ⟨53, _⟩ => ⟨S_, .f32⟩
  | .hbm, ⟨54, _⟩ => ⟨S8x2048x512, .f32⟩
  | .hbm, ⟨55, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call2_cst : Ref sig .tc := ⟨.hbm, 44, rfl⟩
abbrev main_call2_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call3_cst : Ref sig .tc := ⟨.hbm, 53, rfl⟩
abbrev main_call3_v0 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  reducesTo_S8x2048x512_S8x2048_d2 : S8x2048x512.ReducesTo [2] S8x2048
  h_S_ : 0 < S_.numel
  bcast_S8x2048_S8x2048x1_0_1 : S8x2048.BroadcastsInDim S8x2048x1 (![0, 1] : Fin 2 → Fin S8x2048x1.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  shapeCasts_S1x512x512_S512x512 : S1x512x512.ShapeCasts S512x512
  bcast_S1_S1x1x1_2 : S1.BroadcastsInDim S1x1x1 (![2] : Fin 1 → Fin S1x1x1.rank)
  bcast_S1x1x1_S8x2048x512_0_1_2 : S1x1x1.BroadcastsInDim S8x2048x512 (![0, 1, 2] : Fin 3 → Fin S8x2048x512.rank)
  bcast_S_S8x2048x512 : S_.BroadcastsInDim S8x2048x512 (![] : Fin 0 → Fin S8x2048x512.rank)
  dot_S8x2048x1_S8x2048x1_S8x2048x2048_2_2_1_1_0_0_wf : DotDims.WF S8x2048x1 S8x2048x1 S8x2048x2048 [2] [2] [1] [1] [0] [0]
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]
  dot_S8x2048x512_S512x512_S8x2048x512_2_0_01_1_n_n_wf : DotDims.WF S8x2048x512 S512x512 S8x2048x512 [2] [0] [0, 1] [1] [] []

variable [Facts₀]

def dot_S8x2048x1_S8x2048x1_S8x2048x2048_2_2_1_1_0_0 : DotDims S8x2048x1 S8x2048x1 S8x2048x2048 where
  lhsContracting := [2]
  rhsContracting := [2]
  lhsNonContracting := [1]
  rhsNonContracting := [1]
  lhsBatch := [0]
  rhsBatch := [0]
  wf := dot_S8x2048x1_S8x2048x1_S8x2048x2048_2_2_1_1_0_0_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf
def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf

class Facts : Prop extends Facts₀ where

variable [Facts]
-- ==== Proof.Spec.lean ====
/-
  The graph convolution both programs compute, written once on the extended reals, index by index.

  For one batch entry let x be the 2048 × 512 matrix of node features.  Row c has Euclidean norm
  nrm c = sqrt (Σ_f x c f ²).  The cosine correlation of rows c and d is
  (Σ_f x c f · x d f) / (nrm c · nrm d); the adjacency A c d is 1 where the correlation, clipped below at 0,
  exceeds the threshold word, and 0 elsewhere.  The degree of c is deg c = Σ_d A c d, its inverse square root is
  dinv c = 1 / sqrt (deg c), and the normalised Laplacian is lap c d = A c d · dinv c · dinv d.
  One layer propagates features h along the graph, (lap · h) c f = Σ_d lap c d · h d f, applies a dense map
  W and a scalar bias b, and clips below at 0:  layer h W b c g = max (Σ_f (lap · h) c f · W f g + b) 0.
  The result is two layers deep: layer (layer x W1 b1) W2 b2.

  Every operation is the exact one of the extended reals (the quotient is the ideal quotient); the three
  literals are kept as their binary words, the same on both sides, and never evaluated.
-/
import Idealize.ShloMosaic.PureOps.Ideal
import Idealize.ShloMosaic.PureOps.Ideal.Laws
import Idealize.ShloMosaic.Lib.ValueIdx

noncomputable section

namespace Cert.Gcn.Spec

open Idealize.ShloMosaic Idealize.ShloMosaic.ValueIdx

/-- The threshold 0.005, the one and the zero of the adjacency, as binary words. -/
abbrev thrW : EReal := Ideal.ofBits .f32 0x3BA3D70A#32
abbrev oneW : EReal := Ideal.ofBits .f32 0x3F800000#32
abbrev zeroW : EReal := Ideal.ofBits .f32 0x00000000#32

variable (x : Fin 2048 → Fin 512 → EReal)

/-- The Euclidean norm of row c. -/
def nrm (c : Fin 2048) : EReal := Ideal.sqrt (∑ f : Fin 512, x c f * x c f)

/-- The adjacency from a table N of row norms: 1 where the clipped cosine correlation exceeds the threshold. -/
def adjOf (N : Fin 2048 → EReal) (c d : Fin 2048) : EReal :=
  Scalar.select (FloatOps.cmpf (F := Ideal) (φ := .f32) .ogt (max (Ideal.div (∑ f : Fin 512, x c f * x d f) (N c * N d)) zeroW) thrW) oneW zeroW

/-- The adjacency of the graph. -/
def adj (c d : Fin 2048) : EReal := adjOf x (nrm x) c d

/-- The degree of node c. -/
def deg (c : Fin 2048) : EReal := ∑ d : Fin 2048, adj x c d

/-- One over the square root of the degree. -/
def dinv (c : Fin 2048) : EReal := Ideal.div oneW (Ideal.sqrt (deg x c))

/-- The normalised Laplacian. -/
def lap (c d : Fin 2048) : EReal := adj x c d * dinv x c * dinv x d

/-- One layer: propagate h along the graph, apply W and the bias b, clip below at zero. -/
def layer (h : Fin 2048 → Fin 512 → EReal) (W : Fin 512 → Fin 512 → EReal) (b : EReal) (c : Fin 2048) (g : Fin 512) : EReal :=
  max ((∑ f : Fin 512, (∑ d : Fin 2048, lap x c d * h d f) * W f g) + b) zeroW

/-- Two layers. -/
def out (W1 : Fin 512 → Fin 512 → EReal) (b1 : EReal) (W2 : Fin 512 → Fin 512 → EReal) (b2 : EReal) (c : Fin 2048) (g : Fin 512) : EReal :=
  layer x (layer x x W1 b1) W2 b2 c g

/-- The whole result array as one function of the five argument arrays. -/
def G (x0 : (⟨3, ![8, 2048, 512]⟩ : Shape).Idx → EReal) (w1 : (⟨3, ![1, 512, 512]⟩ : Shape).Idx → EReal) (b1 : (⟨1, ![1]⟩ : Shape).Idx → EReal)
    (w2 : (⟨3, ![1, 512, 512]⟩ : Shape).Idx → EReal) (b2 : (⟨1, ![1]⟩ : Shape).Idx → EReal) : (⟨3, ![8, 2048, 512]⟩ : Shape).Idx → EReal :=
  fun i => out (fun c f => x0 (ix3 (i 0) c f)) (fun e f => w1 (ix3 (0 : Fin 1) e f)) (b1 (ix1 (0 : Fin 1)))
    (fun e f => w2 (ix3 (0 : Fin 1) e f)) (b2 (ix1 (0 : Fin 1))) (i 1) (i 2)

end Cert.Gcn.Spec

end
-- ==== Proof.LibMatmulRowsByRows.lean ====
/-
  A product of two matrices that share their SECOND axis, read at an entry.

  For `lhs : [n, K]` and `rhs : [d, K]`, contracted over the second axis of both (the product of `lhs`
  with the transpose of `rhs`), accumulated into the all-zero matrix: at the ideal instance entry `(r, c)`
  of the result is the sum over `k` of `lhs[r, k] · rhs[c, k]`.  Any sizes, any operand formats, any
  precision.  The four hypotheses name the coordinates of the two operand indices at an output index and
  a contraction index; for a printed dimension record two of them come from unfolding the index maps and
  two from the library's facts about a single contracted axis.
-/
import Idealize.ShloMosaic.PureOps.Ideal.Laws
import Idealize.ShloMosaic.Lib.ValueIdx

noncomputable section

namespace Cert.Lib.RowsByRows

open Idealize.ShloMosaic Idealize.ShloMosaic.ValueIdx

/-- `lhs · rhsᵀ` into the zero accumulator at entry `(r, c)`: the sum over the shared axis of the
    products of row `r` of `lhs` with row `c` of `rhs`. -/
theorem matmul_zero_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (prec : Option ContractPrecision)
    (lhs : FVec Ideal ⟨2, ![n, K]⟩ φ₁) (rhs : FVec Ideal ⟨2, ![d, K]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

end Cert.Lib.RowsByRows

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LibMosaicRows.lean ====
/-
  Four readings of a kernel's row-wise vector operations at one entry, at the ideal instance, for any sizes.

  * col_repeated: a one-column matrix [a, 1] broadcast to [a, b] reads, at (p, c), the column's entry p — a row's
    maximum or sum, or a per-row scale, spread over the row.
  * rowSum_at: the sum reduction of a matrix [a, b] over its columns, from the zero word, reads at row p the sum over
    the b columns of the row's entries.
  * rowMax_at: the maximum reduction over the columns, from the word of -∞, reads at row p the fold of max from that
    word's value over the row's entries.
  * exp_at: the exponential of a vector reads, at an index, the exponential of the entry.
-/
import Idealize.ShloMosaic.PureOps.Ideal.Laws
import Idealize.ShloMosaic.Lib.ValueIdx
import Idealize.ShloMosaic.Lib.Pipeline.Value

noncomputable section

namespace Cert.Lib.MosaicRows

open Idealize.ShloMosaic Idealize.ShloMosaic.ValueIdx

/-- A one-column matrix broadcast across b columns reads, at (p, c), the column's entry p. -/
theorem col_repeated {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row p with column k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- The sum over the columns, from the zero word, at row p: the sum of the row's entries. -/
theorem rowSum_at {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- The maximum over the columns, from the word of -∞, at row p: the fold of max from -∞ over the row's entries. -/
theorem rowMax_at {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) := funext fun k => congrArg src (lift_row h p k)
  exact congrArg (fun f => Finset.fold max (Ideal.ofBits .f32 0xFF800000#32) f (Finset.univ : Finset (Fin b))) hf

/-- The exponential of a vector at an index is the exponential of the entry. -/
theorem exp_at {s : Shape} (v : FVec Ideal s .f32) (i : s.Idx) : exp v i = Ideal.exp (v i) := rfl

end Cert.Lib.MosaicRows

end
-- ==== Proof.LibTransposeSlice.lean ====
/-
  Two layout operations on matrices read at an entry, for any sizes and any element type.

  * `transpose2_apply`: the transposition of a matrix `[a, b]` to `[b, a]` reads, at `(q, p)`, the operand at
    `(p, q)`.  With `a = 1` this is a row made a column.
  * `slice_col_apply`: rows `off … off + n - 1` of a one-column matrix `[T, 1]` read, at `(p, 0)`, the
    operand at `(off + p, 0)`.
-/
import Idealize.ShloMosaic.Lib.ValueIdx
import Idealize.ShloMosaic.Lib.Pipeline.Value

noncomputable section

namespace Cert.Lib.TransposeSlice

open Idealize.ShloMosaic Idealize.ShloMosaic.ValueIdx

/-- A matrix transposed reads, at `(q, p)`, the operand at `(p, q)`. -/
theorem transpose2_apply {α : Type} {a b : ℕ} (x : (⟨2, ![a, b]⟩ : Shape).Idx → α)
    (h : (⟨2, ![a, b]⟩ : Shape).Transposes [1, 0] ⟨2, ![b, a]⟩) (p : Fin a) (q : Fin b) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- Rows `off …` of a one-column matrix read, at `(p, 0)`, the operand at `(off + p, 0)`. -/
theorem slice_col_apply {α : Type} {T n : ℕ} (off : ℕ) (x : (⟨2, ![T, 1]⟩ : Shape).Idx → α)
    (h : (⟨2, ![T, 1]⟩ : Shape).Slices ![off, 0] ⟨2, ![n, 1]⟩) (p : Fin n) (hp : off + p.val < T) :
    extractStridedSlice ⟨2, ![n, 1]⟩ ![off, 0] x h (ix2 p (0 : Fin 1)) = x (ix2 ⟨off + p.val, hp⟩ (0 : Fin 1)) :=
  extractStridedSlice_apply ![off, 0] x h (ix2 p (0 : Fin 1)) (ix2 ⟨off + p.val, hp⟩ (0 : Fin 1)) fun ax => by
    match ax with
    | ⟨0, _⟩ => rfl
    | ⟨1, _⟩ => rfl

end Cert.Lib.TransposeSlice

end
-- ==== Proof.LibColumns.lean ====
/-
  Two layout readings used by every stage: a vector recast as a one-column matrix read at `(p, 0)`, and a scalar
  broadcast to any shape read at any index.
-/
import Idealize.ShloMosaic.Lib.ValueIdx
import Idealize.ShloMosaic.Lib.Pipeline.Value

noncomputable section

namespace Cert.Sage.Layout

open Idealize.ShloMosaic Idealize.ShloMosaic.ValueIdx

/-- An `[n]` array cast to `[n, 1]` reads, at `(p, 0)`, the operand at `p`. -/
theorem shapeCast_n_n1_apply {α : Type} {n : ℕ} (x : (⟨1, ![n]⟩ : Shape).Idx → α) (h : (⟨1, ![n]⟩ : Shape).ShapeCasts ⟨2, ![n, 1]⟩)
    (p : Fin n) : shapeCast ⟨2, ![n, 1]⟩ x h (ix2 p (0 : Fin 1)) = x (ix1 p) :=
  shapeCast_apply x h _ _ (by
    rw [Shape.rowMajor_val_one, Shape.rowMajor_val_two]
    show p.val = p.val * 1 + 0
    omega)

/-- A scalar broadcast to a shape reads, at every index, the scalar. -/
theorem broadcastInDim_scalar_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

end Cert.Sage.Layout

end
-- ==== Proof.TileAt.lean ====
/-
  The kernel's row-tile computations, each as one function of its operands, read entry by entry at the ideal
  instance.

  The kernel handles the 2048 rows of a batch entry in eight tiles of 256 rows.  For the tile starting at row `o`:
  * `adjTile o`: the 256 × 2048 block of the adjacency — the products of the tile's rows with all rows, divided by
    the products of the norms (the tile's norms cut from the column of all norms at row `o`), clipped at zero,
    compared with the threshold;
  * `scaleTile o`: that block times the inverse-root degree of its row (cut from the column at row `o`) and of its
    column.
  A change of float format is the identity on the extended reals, a matrix product into the zero accumulator is
  the plain sum over the contracted axis, a sum reduction from the zero word is the plain sum of the row.
-/
import proofs.«162113_j20693152432864_1_alg».proof.Proof.Gen.KernelIdeal.Skeleton
import proofs.«162113_j20693152432864_1_alg».proof.Proof.Spec
import proofs.«162113_j20693152432864_1_alg».proof.Proof.LibMatmulRowsByRows
import proofs.«162113_j20693152432864_1_alg».proof.Proof.LibSplitContraction
import proofs.«162113_j20693152432864_1_alg».proof.Proof.LibMosaicRows
import proofs.«162113_j20693152432864_1_alg».proof.Proof.LibTransposeSlice
import proofs.«162113_j20693152432864_1_alg».proof.Proof.LibColumns
import Idealize.ShloMosaic.Lib.ValueLayout
import Idealize.ShloMosaic.Lib.Pipeline.Value
import Idealize.ShloMosaic.PureOps.Ideal.Laws

noncomputable section

namespace Cert.Gcn.Tile

open Cert.KernelIdeal Cert.KernelIdeal.Gen Idealize.ShloMosaic Idealize.ShloMosaic.ValueIdx

/-! ## The tile functions, at any instance -/

section Defs
variable {F : FTy → Type} [FloatOps F]

/-- The adjacency block of the tile at row `o`: `v2` all rows, `v6` the column of norms, `v7` the row of norms,
    `v43` the tile's rows. -/
def adjTile (o : ℕ) (hs : S2048x1.Slices ![o, 0] S256x1) (v2 : FVec F S2048x512 .bf16) (v6 : FVec F S2048x1 .f32) (v7 : FVec F S1x2048 .f32) (v43 : Vec F S1x256x512 .f32) : FVec F S256x2048 .f32 :=
  have v44 : FVec F S256x512 .f32 := shapeCast S256x512 v43 shapeCasts_S1x256x512_S256x512
  have v45 : FVec F S256x512 .bf16 := truncf .bf16 v44 bitsLt_bf16_f32
  have v46 : FVec F S256x1 .f32 := extractStridedSlice S256x1 ![o, 0] v6 hs
  have cst_25 : FVec F S256x2048 .f32 := constant S256x2048 .f32 0x00000000#32
  have v47 : FVec F S256x2048 .f32 := matmul dot_S256x512_S2048x512_S256x2048_1_1_0_0_n_n none v45 v2 cst_25
  have v48 : FVec F S256x2048 .f32 := broadcastTo S256x2048 v46 broadcasts_S256x1_S256x2048
  have v49 : FVec F S256x2048 .f32 := broadcastTo S256x2048 v7 broadcasts_S1x2048_S256x2048
  have v50 : FVec F S256x2048 .f32 := mulf v48 v49
  have v51 : FVec F S256x2048 .f32 := divf v47 v50
  have cst_26 : F .f32 := Scalar.ofBits .f32 0x00000000#32
  have v52 : FVec F S256x2048 .f32 := broadcast S256x2048 cst_26
  have v53 : FVec F S256x2048 .f32 := maximumf v51 v52
  have cst_27 : F .f32 := Scalar.ofBits .f32 0x3BA3D70A#32
  have v54 : FVec F S256x2048 .f32 := broadcast S256x2048 cst_27
  have v55 : IVec S256x2048 1 := cmpf .ogt v53 v54
  have cst_28 : F .f32 := Scalar.ofBits .f32 0x3F800000#32
  have cst_29 : F .f32 := Scalar.ofBits .f32 0x00000000#32
  have v56 : FVec F S256x2048 .f32 := broadcast S256x2048 cst_28
  have v57 : FVec F S256x2048 .f32 := broadcast S256x2048 cst_29
  have v58 : FVec F S256x2048 .f32 := select v55 v56 v57
  v58

/-- The adjacency block as stored: its format changed, its shape kept. -/
def adjStore (a : FVec F S256x2048 .f32) : FVec F S256x2048 .bf16 :=
  shapeCast S256x2048 (truncf .bf16 a bitsLt_bf16_f32) shapeCasts_S256x2048_S256x2048

/-- The scaled block of the tile at row `o`: `v221` the column of inverse-root degrees, `v222` the same as a row,
    `v223` the stored adjacency block. -/
def scaleTile (o : ℕ) (hs : S2048x1.Slices ![o, 0] S256x1) (v221 : FVec F S2048x1 .f32) (v222 : FVec F S1x2048 .f32) (v223 : Vec F S256x2048 .bf16) : FVec F S256x2048 .bf16 :=
  have v224 : FVec F S256x2048 .f32 := extf .f32 v223 bitsLt_bf16_f32
  have v225 : FVec F S256x1 .f32 := extractStridedSlice S256x1 ![o, 0] v221 hs
  have v226 : FVec F S256x2048 .f32 := broadcastTo S256x2048 v225 broadcasts_S256x1_S256x2048
  have v227 : FVec F S256x2048 .f32 := mulf v224 v226
  have v228 : FVec F S256x2048 .f32 := broadcastTo S256x2048 v222 broadcasts_S1x2048_S256x2048
  have v229 : FVec F S256x2048 .f32 := mulf v227 v228
  have v230 : FVec F S256x2048 .bf16 := truncf .bf16 v229 bitsLt_bf16_f32
  v230

end Defs

/-! ## The three matrix products' operand indices -/

section Dots

/-- Tile rows times all rows, both contracted over their second axis. -/
theorem rowsByRows_at (lhs : FVec Ideal S256x512 .bf16) (rhs : FVec Ideal S2048x512 .bf16) (r : Fin 256) (c : Fin 2048) :
    matmul dot_S256x512_S2048x512_S256x2048_1_1_0_0_n_n none lhs rhs (constant (F := Ideal) S256x2048 .f32 0x00000000#32) (ix2 r c)
      = ∑ k : Fin 512, lhs (ix2 r k) * rhs (ix2 c k) :=
  Cert.Lib.RowsByRows.matmul_zero_at dot_S256x512_S2048x512_S256x2048_1_1_0_0_n_n rfl rfl
    (fun j q => by
      unfold DotDims.lhsIdx
      rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
      rfl)
    (fun j q => dot_S256x512_S2048x512_S256x2048_1_1_0_0_n_n.lhsIdx_val_of_single rfl j q)
    (fun j q => by
      unfold DotDims.rhsIdx
      rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
      rfl)
    (fun j q => dot_S256x512_S2048x512_S256x2048_1_1_0_0_n_n.rhsIdx_val_of_single rfl j q)
    none lhs rhs r c

/-- A 256 × 2048 block times a 2048 × 512 matrix. -/
theorem blockByRows_at (lhs : FVec Ideal S256x2048 .bf16) (rhs : FVec Ideal S2048x512 .bf16) (r : Fin 256) (c : Fin 512) :
    matmul dot_S256x2048_S2048x512_S256x512_1_0_0_1_n_n none lhs rhs (constant (F := Ideal) S256x512 .f32 0x00000000#32) (ix2 r c)
      = ∑ k : Fin 2048, lhs (ix2 r k) * rhs (ix2 k c) :=
  Cert.Lib.SplitContraction.matmul_zero_at dot_S256x2048_S2048x512_S256x512_1_0_0_1_n_n rfl rfl
    (fun j q => by
      unfold DotDims.lhsIdx
      rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
      rfl)
    (fun j q => dot_S256x2048_S2048x512_S256x512_1_0_0_1_n_n.lhsIdx_val_of_single rfl j q)
    (fun j q => dot_S256x2048_S2048x512_S256x512_1_0_0_1_n_n.rhsIdx_val_of_single rfl j q)
    (fun j q => by
      unfold DotDims.rhsIdx
      rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
      rfl)
    none lhs rhs r c

/-- A 256 × 512 block times a 512 × 512 matrix. -/
theorem blockByDense_at (lhs : FVec Ideal S256x512 .bf16) (rhs : FVec Ideal S512x512 .bf16) (r : Fin 256) (c : Fin 512) :
    matmul dot_S256x512_S512x512_S256x512_1_0_0_1_n_n none lhs rhs (constant (F := Ideal) S256x512 .f32 0x00000000#32) (ix2 r c)
      = ∑ k : Fin 512, lhs (ix2 r k) * rhs (ix2 k c) :=
  Cert.Lib.SplitContraction.matmul_zero_at dot_S256x512_S512x512_S256x512_1_0_0_1_n_n rfl rfl
    (fun j q => by
      unfold DotDims.lhsIdx
      rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
      rfl)
    (fun j q => dot_S256x512_S512x512_S256x512_1_0_0_1_n_n.lhsIdx_val_of_single rfl j q)
    (fun j q => dot_S256x512_S512x512_S256x512_1_0_0_1_n_n.rhsIdx_val_of_single rfl j q)
    (fun j q => by
      unfold DotDims.rhsIdx
      rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
      rfl)
    none lhs rhs r c

end Dots

/-! ## The tile functions read at an entry, at the ideal instance -/

section At

open Cert.Gcn.Spec

/-- All rows as a matrix: the block's one sheet. -/
theorem rowsAll_at (X : Vec Ideal S1x2048x512 .f32) (c : Fin 2048) (f : Fin 512) : k0_pay3 X (ix2 c f) = X (ix3 (0 : Fin 1) c f) :=
  shapeCast_1ab_ab_apply X shapeCasts_S1x2048x512_S2048x512 c f

/-- The column of norms at row c. -/
theorem normCol_at (X : Vec Ideal S1x2048x512 .f32) (c : Fin 2048) :
    k0_pay4 X (ix2 c (0 : Fin 1)) = nrm (fun c f => X (ix3 (0 : Fin 1) c f)) c := by
  show Ideal.sqrt (shapeCast S2048x1 (multiReduction .add [1] S2048 (mulf (k0_pay2 X) (k0_pay2 X)) 0x00000000#32 reduces_S2048x512_S2048 (.inl rfl) rfl) shapeCasts_S2048_S2048x1 (ix2 c (0 : Fin 1))) = _
  rw [Cert.Sage.Layout.shapeCast_n_n1_apply, Cert.Lib.MosaicRows.rowSum_at]
  refine congrArg Ideal.sqrt (Finset.sum_congr rfl fun k _ => ?_)
  show k0_pay2 X (ix2 c k) * k0_pay2 X (ix2 c k) = X (ix3 (0 : Fin 1) c k) * X (ix3 (0 : Fin 1) c k)
  rw [show k0_pay2 X (ix2 c k) = X (ix3 (0 : Fin 1) c k) from shapeCast_1ab_ab_apply X shapeCasts_S1x2048x512_S2048x512 c k]

/-- The row of norms at column c. -/
theorem normRow_at (X : Vec Ideal S1x2048x512 .f32) (c : Fin 2048) :
    k0_pay5 X (ix2 (0 : Fin 1) c) = nrm (fun c f => X (ix3 (0 : Fin 1) c f)) c :=
  (transpose_ix2_apply (k0_pay4 X) transposes_S2048x1_p1_0_S1x2048 (0 : Fin 1) c).trans (normCol_at X c)

/-- The adjacency block at (p, q) is the adjacency of rows o + p and q. -/
theorem adjTile_at (o : ℕ) (hs : S2048x1.Slices ![o, 0] S256x1) (ho : o + 256 ≤ 2048)
    (v2 : FVec Ideal S2048x512 .bf16) (v6 : FVec Ideal S2048x1 .f32) (v7 : FVec Ideal S1x2048 .f32) (v43 : Vec Ideal S1x256x512 .f32)
    (x : Fin 2048 → Fin 512 → EReal) (N : Fin 2048 → EReal)
    (h2 : ∀ c f, v2 (ix2 c f) = x c f) (h6 : ∀ c, v6 (ix2 c (0 : Fin 1)) = N c) (h7 : ∀ c, v7 (ix2 (0 : Fin 1) c) = N c)
    (h43 : ∀ (p : Fin 256) (f : Fin 512), v43 (ix3 (0 : Fin 1) p f) = x ⟨o + p.val, by have := p.isLt; omega⟩ f)
    (p : Fin 256) (q : Fin 2048) :
    adjTile o hs v2 v6 v7 v43 (ix2 p q) = adjOf x N ⟨o + p.val, by have := p.isLt; omega⟩ q := by
  have hp : o + p.val < 2048 := by have := p.isLt; omega
  have hnum : matmul dot_S256x512_S2048x512_S256x2048_1_1_0_0_n_n none (truncf .bf16 (shapeCast S256x512 v43 shapeCasts_S1x256x512_S256x512) bitsLt_bf16_f32) v2 (constant (F := Ideal) S256x2048 .f32 0x00000000#32) (ix2 p q)
      = ∑ f : Fin 512, x ⟨o + p.val, hp⟩ f * x q f := by
    rw [rowsByRows_at]
    refine Finset.sum_congr rfl fun k _ => ?_
    rw [h2 q k]
    show shapeCast S256x512 v43 shapeCasts_S1x256x512_S256x512 (ix2 p k) * _ = _
    rw [shapeCast_1ab_ab_apply, h43 p k]
  have hrow : broadcastTo S256x2048 (extractStridedSlice S256x1 ![o, 0] v6 hs) broadcasts_S256x1_S256x2048 (ix2 p q) = N ⟨o + p.val, hp⟩ := by
    rw [Cert.Lib.MosaicRows.col_repeated, Cert.Lib.TransposeSlice.slice_col_apply o v6 hs p hp, h6]
  have hcol : broadcastTo S256x2048 v7 broadcasts_S1x2048_S256x2048 (ix2 p q) = N q := by
    rw [broadcastTo_1b_ab_apply, h7]
  unfold adjTile adjOf
  simp only [select_apply, cmpf_apply, maximumf_apply, divf_apply, mulf_apply, broadcast_apply]
  rw [hnum, hrow, hcol]
  rfl

/-- The stored adjacency block is the block. -/
theorem adjStore_at (a : FVec Ideal S256x2048 .f32) (i : S256x2048.Idx) : adjStore a i = a i :=
  congrFun (shapeCast_self (truncf .bf16 a bitsLt_bf16_f32) shapeCasts_S256x2048_S256x2048) i

/-- The stored degrees of a block: the sums of its rows. -/
theorem degStore_at (a : FVec Ideal S256x2048 .f32) (p : Fin 256) : k0_pay13 a (ix2 p (0 : Fin 1)) = ∑ q : Fin 2048, a (ix2 p q) := by
  unfold k0_pay13
  rw [shapeCast_self, Cert.Sage.Layout.shapeCast_n_n1_apply, Cert.Lib.MosaicRows.rowSum_at]

/-- The column of inverse-root degrees from the column of degrees. -/
theorem dinvCol_at (v218 : Vec Ideal S2048x1 .f32) (c : Fin 2048) :
    k0_pay41 v218 (ix2 c (0 : Fin 1)) = Ideal.div oneW (Ideal.sqrt (v218 (ix2 c (0 : Fin 1)))) := rfl

/-- The same as a row. -/
theorem dinvRow_at (v218 : Vec Ideal S2048x1 .f32) (c : Fin 2048) :
    k0_pay42 v218 (ix2 (0 : Fin 1) c) = Ideal.div oneW (Ideal.sqrt (v218 (ix2 c (0 : Fin 1)))) :=
  (transpose_ix2_apply (k0_pay41 v218) transposes_S2048x1_p1_0_S1x2048 (0 : Fin 1) c).trans (dinvCol_at v218 c)

/-- The scaled block at (p, q): the stored entry times the scales of row o + p and of column q. -/
theorem scaleTile_at (o : ℕ) (hs : S2048x1.Slices ![o, 0] S256x1) (ho : o + 256 ≤ 2048)
    (v221 : FVec Ideal S2048x1 .f32) (v222 : FVec Ideal S1x2048 .f32) (v223 : Vec Ideal S256x2048 .bf16)
    (D : Fin 2048 → EReal) (A : Fin 2048 → Fin 2048 → EReal)
    (h221 : ∀ c, v221 (ix2 c (0 : Fin 1)) = D c) (h222 : ∀ c, v222 (ix2 (0 : Fin 1) c) = D c)
    (h223 : ∀ (p : Fin 256) (q : Fin 2048), v223 (ix2 p q) = A ⟨o + p.val, by have := p.isLt; omega⟩ q)
    (p : Fin 256) (q : Fin 2048) :
    scaleTile o hs v221 v222 v223 (ix2 p q)
      = A ⟨o + p.val, by have := p.isLt; omega⟩ q * D ⟨o + p.val, by have := p.isLt; omega⟩ * D q := by
  have hp : o + p.val < 2048 := by have := p.isLt; omega
  have hrow : broadcastTo S256x2048 (extractStridedSlice S256x1 ![o, 0] v221 hs) broadcasts_S256x1_S256x2048 (ix2 p q) = D ⟨o + p.val, hp⟩ := by
    rw [Cert.Lib.MosaicRows.col_repeated, Cert.Lib.TransposeSlice.slice_col_apply o v221 hs p hp, h221]
  have hcol : broadcastTo S256x2048 v222 broadcasts_S1x2048_S256x2048 (ix2 p q) = D q := by
    rw [broadcastTo_1b_ab_apply, h222]
  unfold scaleTile
  simp only [truncf_apply, extf_apply, mulf_apply]
  rw [hrow, hcol, h223 p q]

/-- One dense layer on a block: `s` the block of the Laplacian, `h` the features of all rows, `w` the dense map,
    `b` the bias. -/
theorem layerStore_at (h : FVec Ideal S2048x512 .bf16) (w : FVec Ideal S512x512 .bf16) (b : Ideal .f32) (s : FVec Ideal S256x2048 .bf16)
    (p : Fin 256) (g : Fin 512) :
    k0_pay69 h w b s (ix2 p g)
      = max ((∑ f : Fin 512, (∑ d : Fin 2048, s (ix2 p d) * h (ix2 d f)) * w (ix2 f g)) + b) zeroW := by
  unfold k0_pay69
  rw [shapeCast_self]
  simp only [truncf_apply, maximumf_apply, addf_apply, broadcast_apply]
  rw [blockByDense_at]
  refine congrArg (fun t => max (t + b) _) (Finset.sum_congr rfl fun f _ => ?_)
  rw [truncf_apply, blockByRows_at]

/-- The same as the kernel's last pass writes it, a one-sheet stack. -/
theorem layerOut_at (w : FVec Ideal S512x512 .bf16) (b : Ideal .f32) (h : Vec Ideal S2048x512 .bf16) (s : Vec Ideal S256x2048 .bf16)
    (p : Fin 256) (g : Fin 512) :
    k0_pay70 w b h s (ix3 (0 : Fin 1) p g)
      = max ((∑ f : Fin 512, (∑ d : Fin 2048, s (ix2 p d) * h (ix2 d f)) * w (ix2 f g)) + b) zeroW := by
  unfold k0_pay70
  rw [shapeCast_ab_1ab_apply]
  simp only [maximumf_apply, addf_apply, broadcast_apply]
  rw [blockByDense_at]
  refine congrArg (fun t => max (t + b) _) (Finset.sum_congr rfl fun f _ => ?_)
  rw [truncf_apply, blockByRows_at]

/-- A dense map's one sheet as a matrix. -/
theorem dense1_at (v8 : Vec Ideal S1x512x512 .f32) (e f : Fin 512) : k0_pay6 v8 (ix2 e f) = v8 (ix3 (0 : Fin 1) e f) :=
  shapeCast_1ab_ab_apply v8 shapeCasts_S1x512x512_S512x512 e f
theorem dense2_at (v11 : Vec Ideal S1x512x512 .f32) (e f : Fin 512) : k0_pay7 v11 (ix2 e f) = v11 (ix3 (0 : Fin 1) e f) :=
  shapeCast_1ab_ab_apply v11 shapeCasts_S1x512x512_S512x512 e f

/-- A bias read off its one-entry vector. -/
theorem bias1_at (v14 : Vec Ideal S1 .f32) : k0_pay8 v14 = v14 (ix1 (0 : Fin 1)) :=
  congrArg v14 (funext fun a => match a with | ⟨0, _⟩ => rfl)
theorem bias2_at (v16 : Vec Ideal S1 .f32) : k0_pay9 v16 = v16 (ix1 (0 : Fin 1)) :=
  congrArg v16 (funext fun a => match a with | ⟨0, _⟩ => rfl)

end At

end Cert.Gcn.Tile

end
-- ==== Proof.LibRowBlocks.lean ====
/-
  A buffer written and read in blocks of consecutive rows.

  The contents a run of stores leaves in a buffer are listed newest first, each store a rectangle with its payload.
  Here every rectangle is a block of `k` whole rows starting at row `o` — of a matrix `[m, n]`, or of a one-sheet
  stack `[1, m, n]`.  Reading the listed contents at entry `(r, q)`:

  * if row `r` lies outside the newest block, the newest store is passed over (`canon_cons_rows_skip`);
  * if it lies inside, the entry is the payload at row `r - o` (`canon_cons_rows_hit`);
  * so if the payload agrees with a function `G` of the matrix index on its block, and the older stores give `G` at
    every entry outside the block, the list gives `G` (`canon_cons_rows`).

  A load of `k` rows from row `o` reads, at `(p, q)`, the listed contents at `(o + p, q)` (`readCov_rows_apply`).
  Any sizes, any element type.
-/
import Idealize.ShloMosaic.Lib.Pipeline.FrameBody
import Idealize.ShloMosaic.Lib.Pipeline.Value
import Idealize.ShloMosaic.Lib.ValueIdx

noncomputable section

namespace Cert.Lib.RowBlocks

open Idealize.ShloMosaic Idealize.ShloMosaic.ValueIdx

variable {Val : EltTy → Type} [∀ e, Nonempty (Val e)] {e : EltTy} {m n k : ℕ}

/-! ## A matrix `[m, n]` -/

/-- A row outside the newest block reads the older stores. -/
theorem canon_cons_rows_skip (o : ℕ)
    (inb : ∀ a, (![o, 0] : Fin 2 → ℕ) a + (⟨2, ![k, n]⟩ : Shape).size a ≤ (⟨2, ![m, n]⟩ : Shape).size a)
    (w : (⟨2, ![k, n]⟩ : Shape).Idx → Val e) (L : List (View.Piece Val (⟨2, ![m, n]⟩ : Shape) e)) (r : Fin m) (q : Fin n)
    (h : ¬ (o ≤ r.val ∧ r.val < o + k)) :
    View.canon ((⟨Rect.unit (s := (⟨2, ![m, n]⟩ : Shape)) ![o, 0] (⟨2, ![k, n]⟩ : Shape).size inb, w⟩ : View.Piece Val (⟨2, ![m, n]⟩ : Shape) e) :: L) (ix2 r q)
      = View.canon L (ix2 r q) := by
  refine View.canon_cons_of_not_mem _ L ?_
  intro hm
  have h0 : o ≤ r.val ∧ r.val < o + k := (Rect.mem_set_unit (s := (⟨2, ![m, n]⟩ : Shape)) (off := ![o, 0]) (size := (⟨2, ![k, n]⟩ : Shape).size) (inb := inb)).mp hm (0 : Fin 2)
  exact h h0

/-- A row inside the newest block reads its payload. -/
theorem canon_cons_rows_hit (o : ℕ)
    (inb : ∀ a, (![o, 0] : Fin 2 → ℕ) a + (⟨2, ![k, n]⟩ : Shape).size a ≤ (⟨2, ![m, n]⟩ : Shape).size a)
    (w : (⟨2, ![k, n]⟩ : Shape).Idx → Val e) (L : List (View.Piece Val (⟨2, ![m, n]⟩ : Shape) e)) (r : Fin m) (q : Fin n)
    (h1 : o ≤ r.val) (h2 : r.val < o + k) :
    View.canon ((⟨Rect.unit (s := (⟨2, ![m, n]⟩ : Shape)) ![o, 0] (⟨2, ![k, n]⟩ : Shape).size inb, w⟩ : View.Piece Val (⟨2, ![m, n]⟩ : Shape) e) :: L) (ix2 r q)
      = w (ix2 (⟨r.val - o, by omega⟩ : Fin k) q) := by
  have he : (Rect.unit (s := (⟨2, ![m, n]⟩ : Shape)) ![o, 0] (⟨2, ![k, n]⟩ : Shape).size inb).emb (ix2 (⟨r.val - o, by omega⟩ : Fin k) q) = ix2 r q := by
    funext a; apply Fin.ext
    match a with
    | ⟨0, _⟩ => show o + 1 * (r.val - o) = r.val; omega
    | ⟨1, _⟩ => show 0 + 1 * q.val = q.val; omega
  exact (congrArg (View.canon _) he.symm).trans
    (View.canon_cons_emb (Rect.unit (s := (⟨2, ![m, n]⟩ : Shape)) ![o, 0] (⟨2, ![k, n]⟩ : Shape).size inb) w L _)

/-- The newest block agrees with `G`, the older stores give `G` outside it: the list gives `G`. -/
theorem canon_cons_rows (o : ℕ)
    (inb : ∀ a, (![o, 0] : Fin 2 → ℕ) a + (⟨2, ![k, n]⟩ : Shape).size a ≤ (⟨2, ![m, n]⟩ : Shape).size a)
    (w : (⟨2, ![k, n]⟩ : Shape).Idx → Val e) (L : List (View.Piece Val (⟨2, ![m, n]⟩ : Shape) e))
    (G : Fin m → Fin n → Val e) (r : Fin m) (q : Fin n)
    (hw : ∀ (p : Fin k) (hp : o + p.val < m), w (ix2 p q) = G ⟨o + p.val, hp⟩ q)
    (hL : ¬ (o ≤ r.val ∧ r.val < o + k) → View.canon L (ix2 r q) = G r q) :
    View.canon ((⟨Rect.unit (s := (⟨2, ![m, n]⟩ : Shape)) ![o, 0] (⟨2, ![k, n]⟩ : Shape).size inb, w⟩ : View.Piece Val (⟨2, ![m, n]⟩ : Shape) e) :: L) (ix2 r q)
      = G r q := by
  by_cases h : o ≤ r.val ∧ r.val < o + k
  · have hr := r.isLt
    have hlt : o + (r.val - o) < m := by omega
    have e1 := hw (⟨r.val - o, by omega⟩ : Fin k) hlt
    have e2 : (⟨o + (r.val - o), hlt⟩ : Fin m) = r := Fin.ext (by show o + (r.val - o) = r.val; omega)
    rw [e2] at e1
    exact (canon_cons_rows_hit o inb w L r q h.1 h.2).trans e1
  · exact (canon_cons_rows_skip o inb w L r q h).trans (hL h)

/-- A load of `k` rows from row `o` reads, at `(p, q)`, the listed contents at `(o + p, q)`. -/
theorem readCov_rows_apply {sig : RefSig} {κ : Kind} {sp : Space} (v : View sig κ sp (⟨2, ![m, n]⟩ : Shape) e)
    (L : List (View.Piece Val (⟨2, ![m, n]⟩ : Shape) e)) (o : ℕ)
    (inb : ∀ a, (![o, 0] : Fin 2 → ℕ) a + (⟨2, ![k, n]⟩ : Shape).size a ≤ (⟨2, ![m, n]⟩ : Shape).size a)
    (p : Fin k) (q : Fin n) (hp : o + p.val < m) :
    v.readCov L (Rect.unit (s := (⟨2, ![m, n]⟩ : Shape)) ![o, 0] (⟨2, ![k, n]⟩ : Shape).size inb).toLoadRect (ix2 p q)
      = View.canon L (ix2 (⟨o + p.val, hp⟩ : Fin m) q) := by
  rw [View.readCov_eq_canon']
  refine congrArg (View.canon L) (funext fun a => Fin.ext ?_)
  match a with
  | ⟨0, _⟩ => show o + 1 * p.val = o + p.val; omega
  | ⟨1, _⟩ => show 0 + 1 * q.val = q.val; omega

/-! ## A one-sheet stack `[1, m, n]` -/

/-- A row outside the newest block reads the older stores. -/
theorem canon_cons_rows3_skip (o : ℕ)
    (inb : ∀ a, (![0, o, 0] : Fin 3 → ℕ) a + (⟨3, ![1, k, n]⟩ : Shape).size a ≤ (⟨3, ![1, m, n]⟩ : Shape).size a)
    (w : (⟨3, ![1, k, n]⟩ : Shape).Idx → Val e) (L : List (View.Piece Val (⟨3, ![1, m, n]⟩ : Shape) e)) (r : Fin m) (q : Fin n)
    (h : ¬ (o ≤ r.val ∧ r.val < o + k)) :
    View.canon ((⟨Rect.unit (s := (⟨3, ![1, m, n]⟩ : Shape)) ![0, o, 0] (⟨3, ![1, k, n]⟩ : Shape).size inb, w⟩ : View.Piece Val (⟨3, ![1, m, n]⟩ : Shape) e) :: L) (ix3 (0 : Fin 1) r q)
      = View.canon L (ix3 (0 : Fin 1) r q) := by
  refine View.canon_cons_of_not_mem _ L ?_
  intro hm
  have h0 : o ≤ r.val ∧ r.val < o + k := (Rect.mem_set_unit (s := (⟨3, ![1, m, n]⟩ : Shape)) (off := ![0, o, 0]) (size := (⟨3, ![1, k, n]⟩ : Shape).size) (inb := inb)).mp hm (1 : Fin 3)
  exact h h0

/-- A row inside the newest block reads its payload. -/
theorem canon_cons_rows3_hit (o : ℕ)
    (inb : ∀ a, (![0, o, 0] : Fin 3 → ℕ) a + (⟨3, ![1, k, n]⟩ : Shape).size a ≤ (⟨3, ![1, m, n]⟩ : Shape).size a)
    (w : (⟨3, ![1, k, n]⟩ : Shape).Idx → Val e) (L : List (View.Piece Val (⟨3, ![1, m, n]⟩ : Shape) e)) (r : Fin m) (q : Fin n)
    (h1 : o ≤ r.val) (h2 : r.val < o + k) :
    View.canon ((⟨Rect.unit (s := (⟨3, ![1, m, n]⟩ : Shape)) ![0, o, 0] (⟨3, ![1, k, n]⟩ : Shape).size inb, w⟩ : View.Piece Val (⟨3, ![1, m, n]⟩ : Shape) e) :: L) (ix3 (0 : Fin 1) r q)
      = w (ix3 (0 : Fin 1) (⟨r.val - o, by omega⟩ : Fin k) q) := by
  have he : (Rect.unit (s := (⟨3, ![1, m, n]⟩ : Shape)) ![0, o, 0] (⟨3, ![1, k, n]⟩ : Shape).size inb).emb (ix3 (0 : Fin 1) (⟨r.val - o, by omega⟩ : Fin k) q) = ix3 (0 : Fin 1) r q := by
    funext a; apply Fin.ext
    match a with
    | ⟨0, _⟩ => show 0 + 1 * 0 = 0; omega
    | ⟨1, _⟩ => show o + 1 * (r.val - o) = r.val; omega
    | ⟨2, _⟩ => show 0 + 1 * q.val = q.val; omega
  exact (congrArg (View.canon _) he.symm).trans
    (View.canon_cons_emb (Rect.unit (s := (⟨3, ![1, m, n]⟩ : Shape)) ![0, o, 0] (⟨3, ![1, k, n]⟩ : Shape).size inb) w L _)

/-- The newest block agrees with `G`, the older stores give `G` outside it: the list gives `G`. -/
theorem canon_cons_rows3 (o : ℕ)
    (inb : ∀ a, (![0, o, 0] : Fin 3 → ℕ) a + (⟨3, ![1, k, n]⟩ : Shape).size a ≤ (⟨3, ![1, m, n]⟩ : Shape).size a)
    (w : (⟨3, ![1, k, n]⟩ : Shape).Idx → Val e) (L : List (View.Piece Val (⟨3, ![1, m, n]⟩ : Shape) e))
    (G : Fin m → Fin n → Val e) (r : Fin m) (q : Fin n)
    (hw : ∀ (p : Fin k) (hp : o + p.val < m), w (ix3 (0 : Fin 1) p q) = G ⟨o + p.val, hp⟩ q)
    (hL : ¬ (o ≤ r.val ∧ r.val < o + k) → View.canon L (ix3 (0 : Fin 1) r q) = G r q) :
    View.canon ((⟨Rect.unit (s := (⟨3, ![1, m, n]⟩ : Shape)) ![0, o, 0] (⟨3, ![1, k, n]⟩ : Shape).size inb, w⟩ : View.Piece Val (⟨3, ![1, m, n]⟩ : Shape) e) :: L) (ix3 (0 : Fin 1) r q)
      = G r q := by
  by_cases h : o ≤ r.val ∧ r.val < o + k
  · have hr := r.isLt
    have hlt : o + (r.val - o) < m := by omega
    have e1 := hw (⟨r.val - o, by omega⟩ : Fin k) hlt
    have e2 : (⟨o + (r.val - o), hlt⟩ : Fin m) = r := Fin.ext (by show o + (r.val - o) = r.val; omega)
    rw [e2] at e1
    exact (canon_cons_rows3_hit o inb w L r q h.1 h.2).trans e1
  · exact (canon_cons_rows3_skip o inb w L r q h).trans (hL h)

end Cert.Lib.RowBlocks

end
-- ==== Proof.KernelBlock.lean ====
/-
  What one grid point of the kernel leaves in its output block: the two-layer graph convolution of the batch
  entry it was handed.

  The body works through the 2048 rows in eight tiles of 256, three times over, keeping three arrays of its own
  between the passes.  First pass: the adjacency block of each tile (stored in the first array) and its row sums,
  the degrees (stored in the second).  Second pass: each adjacency block, read back, is scaled by the
  inverse-root degrees of its rows and columns and stored in place — a later tile's load passes over the blocks
  already rewritten, because blocks of different tiles share no row — and the first layer of the tile is stored in
  the third array.  Third pass: each scaled block, read back, propagates the whole first layer, and the second
  layer of the tile is stored in the output.  Each stored block agrees, entry by entry, with one function of the
  matrix index (the adjacency, the degree, the Laplacian, a layer), so what the lists of stores leave is that
  function.
-/
import proofs.«162113_j20693152432864_1_alg».proof.Proof.Gen.KernelIdeal.Value
import proofs.«162113_j20693152432864_1_alg».proof.Proof.Spec
import proofs.«162113_j20693152432864_1_alg».proof.Proof.TileAt
import proofs.«162113_j20693152432864_1_alg».proof.Proof.LibRowBlocks
import Idealize.ShloMosaic.Lib.ValueIdx
import Idealize.ShloMosaic.Lib.Pipeline.Value
import Idealize.ShloMosaic.Lib.Pipeline.FrameBody

set_option maxRecDepth 16384

noncomputable section

namespace Cert.Gcn.Kernel

open Cert.KernelIdeal Cert.KernelIdeal.Gen Idealize.ShloMosaic Idealize.ShloMosaic.TcCoe Idealize.ShloMosaic.ValueIdx Idealize.SL.Sem
open Cert.Gcn.Spec Cert.Gcn.Tile Cert.Lib.RowBlocks

variable (c : Dev nD) (arg1 : Memref sig .tc .vmem S1x2048x512 .f32) (harg1 : arg1.IsWhole) (arg2 : Memref sig .tc .vmem S1x512x512 .f32) (harg2 : arg2.IsWhole) (arg3 : Memref sig .tc .vmem S1 .f32) (harg3 : arg3.IsWhole) (arg4 : Memref sig .tc .vmem S1x512x512 .f32) (harg4 : arg4.IsWhole) (arg5 : Memref sig .tc .vmem S1 .f32) (harg5 : arg5.IsWhole) (arg7 : Memref sig .tc .vmem S2048x2048 .bf16) (arg8 : Memref sig .tc .vmem S2048x1 .f32) (arg9 : Memref sig .tc .vmem S2048x512 .bf16)
variable (x0 : Vec Ideal S1x2048x512 .f32) (x1 : Vec Ideal S1x512x512 .f32) (x2 : Vec Ideal S1 .f32) (x3 : Vec Ideal S1x512x512 .f32) (x4 : Vec Ideal S1 .f32)

/-- The batch entry's features as a matrix. -/
abbrev xm : Fin 2048 → Fin 512 → EReal := fun c f => x0 (ix3 (0 : Fin 1) c f)

/-! ## Loads of the input block -/

theorem zero3 : (![0, 0, 0] : Fin 3 → ℕ) = fun _ => 0 := by
  funext a; match a with | ⟨0, _⟩ => rfl | ⟨1, _⟩ => rfl | ⟨2, _⟩ => rfl
theorem zero1 : (![0] : Fin 1 → ℕ) = fun _ => 0 := by
  funext a; match a with | ⟨0, _⟩ => rfl

/-- A load of the tile at row o reads rows o + p of the block. -/
theorem loadRows_at (o : ℕ) (inb : ∀ a, (![0, o, 0] : Fin 3 → ℕ) a + S1x256x512.size a ≤ S1x2048x512.size a) (p : Fin 256) (f : Fin 512) (hp : o + p.val < 2048) :
    View.readAt (Elt Ideal) arg1.view (Rect.unit (s := S1x2048x512) ![0, o, 0] S1x256x512.size inb).toLoadRect (harg1.unread x0) (ix3 (0 : Fin 1) p f)
      = x0 (ix3 (0 : Fin 1) ⟨o + p.val, hp⟩ f) := by
  simp only [View.readAt_eq_ld, harg1.read_unread]
  refine congrArg x0 (funext fun a => Fin.ext ?_)
  match a with
  | ⟨0, _⟩ => show 0 + 1 * 0 = 0; omega
  | ⟨1, _⟩ => show o + 1 * p.val = o + p.val; omega
  | ⟨2, _⟩ => show 0 + 1 * f.val = f.val; omega

/-- All rows, the column of norms and the row of norms, off the whole block. -/
theorem rows_at (c' : Fin 2048) (f : Fin 512) : kernelRun0_A.sl.r (F := Ideal) c arg1 harg1 x0 (ix2 c' f) = xm x0 c' f := by
  unfold kernelRun0_A.sl.r
  simp only [View.readAt_eq_ld, harg1.read_unread, View.ld_unit_zero (S := S1x2048x512) zero3]
  exact rowsAll_at x0 c' f
theorem normC_at (c' : Fin 2048) : kernelRun0_A.sl.r_1 (F := Ideal) c arg1 harg1 x0 (ix2 c' (0 : Fin 1)) = nrm (xm x0) c' := by
  unfold kernelRun0_A.sl.r_1
  simp only [View.readAt_eq_ld, harg1.read_unread, View.ld_unit_zero (S := S1x2048x512) zero3]
  exact normCol_at x0 c'
theorem normR_at (c' : Fin 2048) : kernelRun0_A.sl.r_2 (F := Ideal) c arg1 harg1 x0 (ix2 (0 : Fin 1) c') = nrm (xm x0) c' := by
  unfold kernelRun0_A.sl.r_2
  simp only [View.readAt_eq_ld, harg1.read_unread, View.ld_unit_zero (S := S1x2048x512) zero3]
  exact normRow_at x0 c'

/-! ## First pass: the adjacency and the degrees -/

/-- A stored adjacency block agrees with the adjacency on its rows. -/
theorem adjPiece_at (o : ℕ) (hs : S2048x1.Slices ![o, 0] S256x1) (ho : o + 256 ≤ 2048)
    (inb : ∀ a, (![0, o, 0] : Fin 3 → ℕ) a + S1x256x512.size a ≤ S1x2048x512.size a) (p : Fin 256) (q : Fin 2048) (hp : o + p.val < 2048) :
    adjStore (adjTile o hs (kernelRun0_A.sl.r c arg1 harg1 x0) (kernelRun0_A.sl.r_1 c arg1 harg1 x0) (kernelRun0_A.sl.r_2 c arg1 harg1 x0)
        (View.readAt (Elt Ideal) arg1.view (Rect.unit (s := S1x2048x512) ![0, o, 0] S1x256x512.size inb).toLoadRect (harg1.unread x0))) (ix2 p q)
      = adj (xm x0) ⟨o + p.val, hp⟩ q := by
  rw [adjStore_at, adjTile_at o hs ho _ _ _ _ (xm x0) (nrm (xm x0)) (rows_at c arg1 harg1 x0) (normC_at c arg1 harg1 x0) (normR_at c arg1 harg1 x0)
    (fun p f => loadRows_at arg1 harg1 x0 o inb p f (by have := p.isLt; omega))]
  rfl

/-- A stored block of degrees agrees with the degree on its rows. -/
theorem degPiece_at (o : ℕ) (hs : S2048x1.Slices ![o, 0] S256x1) (ho : o + 256 ≤ 2048)
    (inb : ∀ a, (![0, o, 0] : Fin 3 → ℕ) a + S1x256x512.size a ≤ S1x2048x512.size a) (p : Fin 256) (hp : o + p.val < 2048) :
    k0_pay13 (adjTile o hs (kernelRun0_A.sl.r c arg1 harg1 x0) (kernelRun0_A.sl.r_1 c arg1 harg1 x0) (kernelRun0_A.sl.r_2 c arg1 harg1 x0)
        (View.readAt (Elt Ideal) arg1.view (Rect.unit (s := S1x2048x512) ![0, o, 0] S1x256x512.size inb).toLoadRect (harg1.unread x0))) (ix2 p (0 : Fin 1))
      = deg (xm x0) ⟨o + p.val, hp⟩ := by
  rw [degStore_at]
  unfold deg
  refine Finset.sum_congr rfl fun q _ => ?_
  rw [adjTile_at o hs ho _ _ _ _ (xm x0) (nrm (xm x0)) (rows_at c arg1 harg1 x0) (normC_at c arg1 harg1 x0) (normR_at c arg1 harg1 x0)
    (fun p f => loadRows_at arg1 harg1 x0 o inb p f (by have := p.isLt; omega))]
  rfl

/-- What the first pass leaves in the first array: the adjacency. -/
theorem canon_adj (r q : Fin 2048) : View.canon (kernelRun0_A.sl.HS0_8 (F := Ideal) c arg1 harg1 x0) (ix2 r q) = adj (xm x0) r q := by
  unfold kernelRun0_A.sl.HS0_8
  refine canon_cons_rows (Val := Elt Ideal) (e := .bf16) 1792 inb_S2048x2048_S256x2048_1792_0 _ _ (adj (xm x0)) r q (fun p hp => ?_) (fun h7 => ?_)
  · show adjStore (adjTile 1792 slices_S2048x1_o1792_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 1792, 0] S1x256x512.size inb_S1x2048x512_S1x256x512_0_1792_0).toLoadRect (harg1.unread x0))) (ix2 p q) = _
    exact adjPiece_at c arg1 harg1 x0 1792 slices_S2048x1_o1792_0_S256x1 (by omega) inb_S1x2048x512_S1x256x512_0_1792_0 p q hp
  refine canon_cons_rows (Val := Elt Ideal) (e := .bf16) 1536 inb_S2048x2048_S256x2048_1536_0 _ _ (adj (xm x0)) r q (fun p hp => ?_) (fun h6 => ?_)
  · show adjStore (adjTile 1536 slices_S2048x1_o1536_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 1536, 0] S1x256x512.size inb_S1x2048x512_S1x256x512_0_1536_0).toLoadRect (harg1.unread x0))) (ix2 p q) = _
    exact adjPiece_at c arg1 harg1 x0 1536 slices_S2048x1_o1536_0_S256x1 (by omega) inb_S1x2048x512_S1x256x512_0_1536_0 p q hp
  refine canon_cons_rows (Val := Elt Ideal) (e := .bf16) 1280 inb_S2048x2048_S256x2048_1280_0 _ _ (adj (xm x0)) r q (fun p hp => ?_) (fun h5 => ?_)
  · show adjStore (adjTile 1280 slices_S2048x1_o1280_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 1280, 0] S1x256x512.size inb_S1x2048x512_S1x256x512_0_1280_0).toLoadRect (harg1.unread x0))) (ix2 p q) = _
    exact adjPiece_at c arg1 harg1 x0 1280 slices_S2048x1_o1280_0_S256x1 (by omega) inb_S1x2048x512_S1x256x512_0_1280_0 p q hp
  refine canon_cons_rows (Val := Elt Ideal) (e := .bf16) 1024 inb_S2048x2048_S256x2048_1024_0 _ _ (adj (xm x0)) r q (fun p hp => ?_) (fun h4 => ?_)
  · show adjStore (adjTile 1024 slices_S2048x1_o1024_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 1024, 0] S1x256x512.size inb_S1x2048x512_S1x256x512_0_1024_0).toLoadRect (harg1.unread x0))) (ix2 p q) = _
    exact adjPiece_at c arg1 harg1 x0 1024 slices_S2048x1_o1024_0_S256x1 (by omega) inb_S1x2048x512_S1x256x512_0_1024_0 p q hp
  refine canon_cons_rows (Val := Elt Ideal) (e := .bf16) 768 inb_S2048x2048_S256x2048_768_0 _ _ (adj (xm x0)) r q (fun p hp => ?_) (fun h3 => ?_)
  · show adjStore (adjTile 768 slices_S2048x1_o768_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 768, 0] S1x256x512.size inb_S1x2048x512_S1x256x512_0_768_0).toLoadRect (harg1.unread x0))) (ix2 p q) = _
    exact adjPiece_at c arg1 harg1 x0 768 slices_S2048x1_o768_0_S256x1 (by omega) inb_S1x2048x512_S1x256x512_0_768_0 p q hp
  refine canon_cons_rows (Val := Elt Ideal) (e := .bf16) 512 inb_S2048x2048_S256x2048_512_0 _ _ (adj (xm x0)) r q (fun p hp => ?_) (fun h2 => ?_)
  · show adjStore (adjTile 512 slices_S2048x1_o512_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 512, 0] S1x256x512.size inb_S1x2048x512_S1x256x512_0_512_0).toLoadRect (harg1.unread x0))) (ix2 p q) = _
    exact adjPiece_at c arg1 harg1 x0 512 slices_S2048x1_o512_0_S256x1 (by omega) inb_S1x2048x512_S1x256x512_0_512_0 p q hp
  refine canon_cons_rows (Val := Elt Ideal) (e := .bf16) 256 inb_S2048x2048_S256x2048_256_0 _ _ (adj (xm x0)) r q (fun p hp => ?_) (fun h1 => ?_)
  · show adjStore (adjTile 256 slices_S2048x1_o256_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 256, 0] S1x256x512.size inb_S1x2048x512_S1x256x512_0_256_0).toLoadRect (harg1.unread x0))) (ix2 p q) = _
    exact adjPiece_at c arg1 harg1 x0 256 slices_S2048x1_o256_0_S256x1 (by omega) inb_S1x2048x512_S1x256x512_0_256_0 p q hp
  refine canon_cons_rows (Val := Elt Ideal) (e := .bf16) 0 inb_S2048x2048_S256x2048_0_0 _ _ (adj (xm x0)) r q (fun p hp => ?_) (fun h0 => ?_)
  · show adjStore (adjTile 0 slices_S2048x1_o0_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 0, 0] S1x256x512.size inb_S1x2048x512_S1x256x512_0_0_0).toLoadRect (harg1.unread x0))) (ix2 p q) = _
    exact adjPiece_at c arg1 harg1 x0 0 slices_S2048x1_o0_0_S256x1 (by omega) inb_S1x2048x512_S1x256x512_0_0_0 p q hp
  exfalso; have := r.isLt; omega

/-- What the first pass leaves in the second array: the degrees. -/
theorem canon_deg (r : Fin 2048) : View.canon (kernelRun0_A.sl.HS1_8 (F := Ideal) c arg1 harg1 x0) (ix2 r (0 : Fin 1)) = deg (xm x0) r := by
  unfold kernelRun0_A.sl.HS1_8
  refine canon_cons_rows (Val := Elt Ideal) (e := .f32) 1792 inb_S2048x1_S256x1_1792_0 _ _ (fun r _ => deg (xm x0) r) r (0 : Fin 1) (fun p hp => ?_) (fun h7 => ?_)
  · show k0_pay13 (adjTile 1792 slices_S2048x1_o1792_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 1792, 0] S1x256x512.size inb_S1x2048x512_S1x256x512_0_1792_0).toLoadRect (harg1.unread x0))) (ix2 p (0 : Fin 1)) = _
    exact degPiece_at c arg1 harg1 x0 1792 slices_S2048x1_o1792_0_S256x1 (by omega) inb_S1x2048x512_S1x256x512_0_1792_0 p hp
  refine canon_cons_rows (Val := Elt Ideal) (e := .f32) 1536 inb_S2048x1_S256x1_1536_0 _ _ (fun r _ => deg (xm x0) r) r (0 : Fin 1) (fun p hp => ?_) (fun h6 => ?_)
  · show k0_pay13 (adjTile 1536 slices_S2048x1_o1536_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 1536, 0] S1x256x512.size inb_S1x2048x512_S1x256x512_0_1536_0).toLoadRect (harg1.unread x0))) (ix2 p (0 : Fin 1)) = _
    exact degPiece_at c arg1 harg1 x0 1536 slices_S2048x1_o1536_0_S256x1 (by omega) inb_S1x2048x512_S1x256x512_0_1536_0 p hp
  refine canon_cons_rows (Val := Elt Ideal) (e := .f32) 1280 inb_S2048x1_S256x1_1280_0 _ _ (fun r _ => deg (xm x0) r) r (0 : Fin 1) (fun p hp => ?_) (fun h5 => ?_)
  · show k0_pay13 (adjTile 1280 slices_S2048x1_o1280_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 1280, 0] S1x256x512.size inb_S1x2048x512_S1x256x512_0_1280_0).toLoadRect (harg1.unread x0))) (ix2 p (0 : Fin 1)) = _
    exact degPiece_at c arg1 harg1 x0 1280 slices_S2048x1_o1280_0_S256x1 (by omega) inb_S1x2048x512_S1x256x512_0_1280_0 p hp
  refine canon_cons_rows (Val := Elt Ideal) (e := .f32) 1024 inb_S2048x1_S256x1_1024_0 _ _ (fun r _ => deg (xm x0) r) r (0 : Fin 1) (fun p hp => ?_) (fun h4 => ?_)
  · show k0_pay13 (adjTile 1024 slices_S2048x1_o1024_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 1024, 0] S1x256x512.size inb_S1x2048x512_S1x256x512_0_1024_0).toLoadRect (harg1.unread x0))) (ix2 p (0 : Fin 1)) = _
    exact degPiece_at c arg1 harg1 x0 1024 slices_S2048x1_o1024_0_S256x1 (by omega) inb_S1x2048x512_S1x256x512_0_1024_0 p hp
  refine canon_cons_rows (Val := Elt Ideal) (e := .f32) 768 inb_S2048x1_S256x1_768_0 _ _ (fun r _ => deg (xm x0) r) r (0 : Fin 1) (fun p hp => ?_) (fun h3 => ?_)
  · show k0_pay13 (adjTile 768 slices_S2048x1_o768_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 768, 0] S1x256x512.size inb_S1x2048x512_S1x256x512_0_768_0).toLoadRect (harg1.unread x0))) (ix2 p (0 : Fin 1)) = _
    exact degPiece_at c arg1 harg1 x0 768 slices_S2048x1_o768_0_S256x1 (by omega) inb_S1x2048x512_S1x256x512_0_768_0 p hp
  refine canon_cons_rows (Val := Elt Ideal) (e := .f32) 512 inb_S2048x1_S256x1_512_0 _ _ (fun r _ => deg (xm x0) r) r (0 : Fin 1) (fun p hp => ?_) (fun h2 => ?_)
  · show k0_pay13 (adjTile 512 slices_S2048x1_o512_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 512, 0] S1x256x512.size inb_S1x2048x512_S1x256x512_0_512_0).toLoadRect (harg1.unread x0))) (ix2 p (0 : Fin 1)) = _
    exact degPiece_at c arg1 harg1 x0 512 slices_S2048x1_o512_0_S256x1 (by omega) inb_S1x2048x512_S1x256x512_0_512_0 p hp
  refine canon_cons_rows (Val := Elt Ideal) (e := .f32) 256 inb_S2048x1_S256x1_256_0 _ _ (fun r _ => deg (xm x0) r) r (0 : Fin 1) (fun p hp => ?_) (fun h1 => ?_)
  · show k0_pay13 (adjTile 256 slices_S2048x1_o256_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 256, 0] S1x256x512.size inb_S1x2048x512_S1x256x512_0_256_0).toLoadRect (harg1.unread x0))) (ix2 p (0 : Fin 1)) = _
    exact degPiece_at c arg1 harg1 x0 256 slices_S2048x1_o256_0_S256x1 (by omega) inb_S1x2048x512_S1x256x512_0_256_0 p hp
  refine canon_cons_rows (Val := Elt Ideal) (e := .f32) 0 inb_S2048x1_S256x1_0_0 _ _ (fun r _ => deg (xm x0) r) r (0 : Fin 1) (fun p hp => ?_) (fun h0 => ?_)
  · show k0_pay13 (adjTile 0 slices_S2048x1_o0_0_S256x1 (kernelRun0_A.sl.r c arg1 harg1 x0) (kernelRun0_A.sl.r_1 c arg1 harg1 x0) (kernelRun0_A.sl.r_2 c arg1 harg1 x0) (View.readAt (Elt Ideal) arg1.view (Rect.unit (s := S1x2048x512) ![0, 0, 0] S1x256x512.size inb_S1x2048x512_S1x256x512_0_0_0).toLoadRect (harg1.unread x0))) (ix2 p (0 : Fin 1)) = _
    exact degPiece_at c arg1 harg1 x0 0 slices_S2048x1_o0_0_S256x1 (by omega) inb_S1x2048x512_S1x256x512_0_0_0 p hp
  exfalso; have := r.isLt; omega

section Passes

/-! ## Between the passes: the degrees read back, and their inverse roots -/

include c arg1 harg1 arg7 arg8 x0

theorem zero_add_fin (r : Fin 2048) (h : 0 + r.val < 2048) : (⟨0 + r.val, h⟩ : Fin 2048) = r := Fin.ext (Nat.zero_add _)

theorem degs_at (r : Fin 2048) : kernelRun0_A.sl.v218 (F := Ideal) c arg1 harg1 arg8 x0 (ix2 r (0 : Fin 1)) = deg (xm x0) r := by
  unfold kernelRun0_A.sl.v218
  rw [readCov_rows_apply (Val := Elt Ideal) (e := .f32) arg8.view _ 0 inb_S2048x1_S2048x1_0_0 r (0 : Fin 1) (by have := r.isLt; omega), zero_add_fin c arg1 harg1 arg7 arg8 x0]
  exact canon_deg c arg1 harg1 x0 r

theorem dinvC_at (r : Fin 2048) : kernelRun0_A.sl.r_17 (F := Ideal) c arg1 harg1 arg8 x0 (ix2 r (0 : Fin 1)) = dinv (xm x0) r := by
  unfold kernelRun0_A.sl.r_17
  rw [dinvCol_at, degs_at c arg1 harg1 arg7 arg8 x0]
  rfl

theorem dinvR_at (r : Fin 2048) : kernelRun0_A.sl.r_18 (F := Ideal) c arg1 harg1 arg8 x0 (ix2 (0 : Fin 1) r) = dinv (xm x0) r := by
  unfold kernelRun0_A.sl.r_18
  rw [dinvRow_at, degs_at c arg1 harg1 arg7 arg8 x0]
  rfl

/-! ## Second pass: the blocks not yet rewritten still hold the adjacency -/

theorem canonRaw_0 (r q : Fin 2048) (h : 0 ≤ r.val) : View.canon (kernelRun0_A.sl.HS0_8 (F := Ideal) c arg1 harg1 x0) (ix2 r q) = adj (xm x0) r q := canon_adj c arg1 harg1 x0 r q
theorem canonRaw_1 (r q : Fin 2048) (h : 256 ≤ r.val) : View.canon (kernelRun0_A.sl.HS0_9 (F := Ideal) c arg1 harg1 arg7 arg8 x0) (ix2 r q) = adj (xm x0) r q := by
  unfold kernelRun0_A.sl.HS0_9
  rw [canon_cons_rows_skip (Val := Elt Ideal) (e := .bf16) 0 inb_S2048x2048_S256x2048_0_0 _ _ r q (by omega)]
  exact canonRaw_0 c arg1 harg1 arg7 arg8 x0 r q (by omega)
theorem canonRaw_2 (r q : Fin 2048) (h : 512 ≤ r.val) : View.canon (kernelRun0_A.sl.HS0_10 (F := Ideal) c arg1 harg1 arg7 arg8 x0) (ix2 r q) = adj (xm x0) r q := by
  unfold kernelRun0_A.sl.HS0_10
  rw [canon_cons_rows_skip (Val := Elt Ideal) (e := .bf16) 256 inb_S2048x2048_S256x2048_256_0 _ _ r q (by omega)]
  exact canonRaw_1 c arg1 harg1 arg7 arg8 x0 r q (by omega)
theorem canonRaw_3 (r q : Fin 2048) (h : 768 ≤ r.val) : View.canon (kernelRun0_A.sl.HS0_11 (F := Ideal) c arg1 harg1 arg7 arg8 x0) (ix2 r q) = adj (xm x0) r q := by
  unfold kernelRun0_A.sl.HS0_11
  rw [canon_cons_rows_skip (Val := Elt Ideal) (e := .bf16) 512 inb_S2048x2048_S256x2048_512_0 _ _ r q (by omega)]
  exact canonRaw_2 c arg1 harg1 arg7 arg8 x0 r q (by omega)
theorem canonRaw_4 (r q : Fin 2048) (h : 1024 ≤ r.val) : View.canon (kernelRun0_A.sl.HS0_12 (F := Ideal) c arg1 harg1 arg7 arg8 x0) (ix2 r q) = adj (xm x0) r q := by
  unfold kernelRun0_A.sl.HS0_12
  rw [canon_cons_rows_skip (Val := Elt Ideal) (e := .bf16) 768 inb_S2048x2048_S256x2048_768_0 _ _ r q (by omega)]
  exact canonRaw_3 c arg1 harg1 arg7 arg8 x0 r q (by omega)
theorem canonRaw_5 (r q : Fin 2048) (h : 1280 ≤ r.val) : View.canon (kernelRun0_A.sl.HS0_13 (F := Ideal) c arg1 harg1 arg7 arg8 x0) (ix2 r q) = adj (xm x0) r q := by
  unfold kernelRun0_A.sl.HS0_13
  rw [canon_cons_rows_skip (Val := Elt Ideal) (e := .bf16) 1024 inb_S2048x2048_S256x2048_1024_0 _ _ r q (by omega)]
  exact canonRaw_4 c arg1 harg1 arg7 arg8 x0 r q (by omega)
theorem canonRaw_6 (r q : Fin 2048) (h : 1536 ≤ r.val) : View.canon (kernelRun0_A.sl.HS0_14 (F := Ideal) c arg1 harg1 arg7 arg8 x0) (ix2 r q) = adj (xm x0) r q := by
  unfold kernelRun0_A.sl.HS0_14
  rw [canon_cons_rows_skip (Val := Elt Ideal) (e := .bf16) 1280 inb_S2048x2048_S256x2048_1280_0 _ _ r q (by omega)]
  exact canonRaw_5 c arg1 harg1 arg7 arg8 x0 r q (by omega)
theorem canonRaw_7 (r q : Fin 2048) (h : 1792 ≤ r.val) : View.canon (kernelRun0_A.sl.HS0_15 (F := Ideal) c arg1 harg1 arg7 arg8 x0) (ix2 r q) = adj (xm x0) r q := by
  unfold kernelRun0_A.sl.HS0_15
  rw [canon_cons_rows_skip (Val := Elt Ideal) (e := .bf16) 1536 inb_S2048x2048_S256x2048_1536_0 _ _ r q (by omega)]
  exact canonRaw_6 c arg1 harg1 arg7 arg8 x0 r q (by omega)

theorem raw_0 (p : Fin 256) (q : Fin 2048) (hp : 0 + p.val < 2048) : kernelRun0_A.sl.v223 (F := Ideal) c arg1 harg1 arg7 x0 (ix2 p q) = adj (xm x0) ⟨0 + p.val, hp⟩ q := by
  unfold kernelRun0_A.sl.v223
  rw [readCov_rows_apply (Val := Elt Ideal) (e := .bf16) arg7.view _ 0 inb_S2048x2048_S256x2048_0_0 p q hp]
  exact canonRaw_0 c arg1 harg1 arg7 arg8 x0 _ q (by show 0 ≤ 0 + p.val; omega)
theorem raw_1 (p : Fin 256) (q : Fin 2048) (hp : 256 + p.val < 2048) : kernelRun0_A.sl.v245 (F := Ideal) c arg1 harg1 arg7 arg8 x0 (ix2 p q) = adj (xm x0) ⟨256 + p.val, hp⟩ q := by
  unfold kernelRun0_A.sl.v245
  rw [readCov_rows_apply (Val := Elt Ideal) (e := .bf16) arg7.view _ 256 inb_S2048x2048_S256x2048_256_0 p q hp]
  exact canonRaw_1 c arg1 harg1 arg7 arg8 x0 _ q (by show 256 ≤ 256 + p.val; omega)
theorem raw_2 (p : Fin 256) (q : Fin 2048) (hp : 512 + p.val < 2048) : kernelRun0_A.sl.v267 (F := Ideal) c arg1 harg1 arg7 arg8 x0 (ix2 p q) = adj (xm x0) ⟨512 + p.val, hp⟩ q := by
  unfold kernelRun0_A.sl.v267
  rw [readCov_rows_apply (Val := Elt Ideal) (e := .bf16) arg7.view _ 512 inb_S2048x2048_S256x2048_512_0 p q hp]
  exact canonRaw_2 c arg1 harg1 arg7 arg8 x0 _ q (by show 512 ≤ 512 + p.val; omega)
theorem raw_3 (p : Fin 256) (q : Fin 2048) (hp : 768 + p.val < 2048) : kernelRun0_A.sl.v289 (F := Ideal) c arg1 harg1 arg7 arg8 x0 (ix2 p q) = adj (xm x0) ⟨768 + p.val, hp⟩ q := by
  unfold kernelRun0_A.sl.v289
  rw [readCov_rows_apply (Val := Elt Ideal) (e := .bf16) arg7.view _ 768 inb_S2048x2048_S256x2048_768_0 p q hp]
  exact canonRaw_3 c arg1 harg1 arg7 arg8 x0 _ q (by show 768 ≤ 768 + p.val; omega)
theorem raw_4 (p : Fin 256) (q : Fin 2048) (hp : 1024 + p.val < 2048) : kernelRun0_A.sl.v311 (F := Ideal) c arg1 harg1 arg7 arg8 x0 (ix2 p q) = adj (xm x0) ⟨1024 + p.val, hp⟩ q := by
  unfold kernelRun0_A.sl.v311
  rw [readCov_rows_apply (Val := Elt Ideal) (e := .bf16) arg7.view _ 1024 inb_S2048x2048_S256x2048_1024_0 p q hp]
  exact canonRaw_4 c arg1 harg1 arg7 arg8 x0 _ q (by show 1024 ≤ 1024 + p.val; omega)
theorem raw_5 (p : Fin 256) (q : Fin 2048) (hp : 1280 + p.val < 2048) : kernelRun0_A.sl.v333 (F := Ideal) c arg1 harg1 arg7 arg8 x0 (ix2 p q) = adj (xm x0) ⟨1280 + p.val, hp⟩ q := by
  unfold kernelRun0_A.sl.v333
  rw [readCov_rows_apply (Val := Elt Ideal) (e := .bf16) arg7.view _ 1280 inb_S2048x2048_S256x2048_1280_0 p q hp]
  exact canonRaw_5 c arg1 harg1 arg7 arg8 x0 _ q (by show 1280 ≤ 1280 + p.val; omega)
theorem raw_6 (p : Fin 256) (q : Fin 2048) (hp : 1536 + p.val < 2048) : kernelRun0_A.sl.v355 (F := Ideal) c arg1 harg1 arg7 arg8 x0 (ix2 p q) = adj (xm x0) ⟨1536 + p.val, hp⟩ q := by
  unfold kernelRun0_A.sl.v355
  rw [readCov_rows_apply (Val := Elt Ideal) (e := .bf16) arg7.view _ 1536 inb_S2048x2048_S256x2048_1536_0 p q hp]
  exact canonRaw_6 c arg1 harg1 arg7 arg8 x0 _ q (by show 1536 ≤ 1536 + p.val; omega)
theorem raw_7 (p : Fin 256) (q : Fin 2048) (hp : 1792 + p.val < 2048) : kernelRun0_A.sl.v377 (F := Ideal) c arg1 harg1 arg7 arg8 x0 (ix2 p q) = adj (xm x0) ⟨1792 + p.val, hp⟩ q := by
  unfold kernelRun0_A.sl.v377
  rw [readCov_rows_apply (Val := Elt Ideal) (e := .bf16) arg7.view _ 1792 inb_S2048x2048_S256x2048_1792_0 p q hp]
  exact canonRaw_7 c arg1 harg1 arg7 arg8 x0 _ q (by show 1792 ≤ 1792 + p.val; omega)

/-- A block rewritten by the second pass agrees with the Laplacian on its rows. -/
theorem scalePiece_at (o : ℕ) (hs : S2048x1.Slices ![o, 0] S256x1) (ho : o + 256 ≤ 2048) (v223 : Vec Ideal S256x2048 .bf16)
    (h223 : ∀ (p : Fin 256) (q : Fin 2048), v223 (ix2 p q) = adj (xm x0) ⟨o + p.val, by have := p.isLt; omega⟩ q)
    (p : Fin 256) (q : Fin 2048) (hp : o + p.val < 2048) :
    k0_pay68 (scaleTile o hs (kernelRun0_A.sl.r_17 c arg1 harg1 arg8 x0) (kernelRun0_A.sl.r_18 c arg1 harg1 arg8 x0) v223) (ix2 p q) = lap (xm x0) ⟨o + p.val, hp⟩ q := by
  unfold k0_pay68
  rw [shapeCast_self, scaleTile_at o hs ho _ _ _ (dinv (xm x0)) (adj (xm x0)) (dinvC_at c arg1 harg1 arg7 arg8 x0) (dinvR_at c arg1 harg1 arg7 arg8 x0) h223]
  rfl

theorem canonLap_1 (r q : Fin 2048) (h : r.val < 256) : View.canon (kernelRun0_A.sl.HS0_9 (F := Ideal) c arg1 harg1 arg7 arg8 x0) (ix2 r q) = lap (xm x0) r q := by
  unfold kernelRun0_A.sl.HS0_9
  refine canon_cons_rows (Val := Elt Ideal) (e := .bf16) 0 inb_S2048x2048_S256x2048_0_0 _ _ (lap (xm x0)) r q (fun p hp => ?_) (fun hh => ?_)
  · show k0_pay68 (scaleTile 0 slices_S2048x1_o0_0_S256x1 (kernelRun0_A.sl.r_17 c arg1 harg1 arg8 x0) (kernelRun0_A.sl.r_18 c arg1 harg1 arg8 x0) (kernelRun0_A.sl.v223 c arg1 harg1 arg7 x0)) (ix2 p q) = _
    exact scalePiece_at c arg1 harg1 arg7 arg8 x0 0 slices_S2048x1_o0_0_S256x1 (by omega) _ (fun p q => raw_0 c arg1 harg1 arg7 arg8 x0 p q (by have := p.isLt; omega)) p q hp
  · exfalso; omega
theorem canonLap_2 (r q : Fin 2048) (h : r.val < 512) : View.canon (kernelRun0_A.sl.HS0_10 (F := Ideal) c arg1 harg1 arg7 arg8 x0) (ix2 r q) = lap (xm x0) r q := by
  unfold kernelRun0_A.sl.HS0_10
  refine canon_cons_rows (Val := Elt Ideal) (e := .bf16) 256 inb_S2048x2048_S256x2048_256_0 _ _ (lap (xm x0)) r q (fun p hp => ?_) (fun hh => ?_)
  · show k0_pay68 (scaleTile 256 slices_S2048x1_o256_0_S256x1 (kernelRun0_A.sl.r_17 c arg1 harg1 arg8 x0) (kernelRun0_A.sl.r_18 c arg1 harg1 arg8 x0) (kernelRun0_A.sl.v245 c arg1 harg1 arg7 arg8 x0)) (ix2 p q) = _
    exact scalePiece_at c arg1 harg1 arg7 arg8 x0 256 slices_S2048x1_o256_0_S256x1 (by omega) _ (fun p q => raw_1 c arg1 harg1 arg7 arg8 x0 p q (by have := p.isLt; omega)) p q hp
  · exact canonLap_1 c arg1 harg1 arg7 arg8 x0 r q (by omega)
theorem canonLap_3 (r q : Fin 2048) (h : r.val < 768) : View.canon (kernelRun0_A.sl.HS0_11 (F := Ideal) c arg1 harg1 arg7 arg8 x0) (ix2 r q) = lap (xm x0) r q := by
  unfold kernelRun0_A.sl.HS0_11
  refine canon_cons_rows (Val := Elt Ideal) (e := .bf16) 512 inb_S2048x2048_S256x2048_512_0 _ _ (lap (xm x0)) r q (fun p hp => ?_) (fun hh => ?_)
  · show k0_pay68 (scaleTile 512 slices_S2048x1_o512_0_S256x1 (kernelRun0_A.sl.r_17 c arg1 harg1 arg8 x0) (kernelRun0_A.sl.r_18 c arg1 harg1 arg8 x0) (kernelRun0_A.sl.v267 c arg1 harg1 arg7 arg8 x0)) (ix2 p q) = _
    exact scalePiece_at c arg1 harg1 arg7 arg8 x0 512 slices_S2048x1_o512_0_S256x1 (by omega) _ (fun p q => raw_2 c arg1 harg1 arg7 arg8 x0 p q (by have := p.isLt; omega)) p q hp
  · exact canonLap_2 c arg1 harg1 arg7 arg8 x0 r q (by omega)
theorem canonLap_4 (r q : Fin 2048) (h : r.val < 1024) : View.canon (kernelRun0_A.sl.HS0_12 (F := Ideal) c arg1 harg1 arg7 arg8 x0) (ix2 r q) = lap (xm x0) r q := by
  unfold kernelRun0_A.sl.HS0_12
  refine canon_cons_rows (Val := Elt Ideal) (e := .bf16) 768 inb_S2048x2048_S256x2048_768_0 _ _ (lap (xm x0)) r q (fun p hp => ?_) (fun hh => ?_)
  · show k0_pay68 (scaleTile 768 slices_S2048x1_o768_0_S256x1 (kernelRun0_A.sl.r_17 c arg1 harg1 arg8 x0) (kernelRun0_A.sl.r_18 c arg1 harg1 arg8 x0) (kernelRun0_A.sl.v289 c arg1 harg1 arg7 arg8 x0)) (ix2 p q) = _
    exact scalePiece_at c arg1 harg1 arg7 arg8 x0 768 slices_S2048x1_o768_0_S256x1 (by omega) _ (fun p q => raw_3 c arg1 harg1 arg7 arg8 x0 p q (by have := p.isLt; omega)) p q hp
  · exact canonLap_3 c arg1 harg1 arg7 arg8 x0 r q (by omega)
theorem canonLap_5 (r q : Fin 2048) (h : r.val < 1280) : View.canon (kernelRun0_A.sl.HS0_13 (F := Ideal) c arg1 harg1 arg7 arg8 x0) (ix2 r q) = lap (xm x0) r q := by
  unfold kernelRun0_A.sl.HS0_13
  refine canon_cons_rows (Val := Elt Ideal) (e := .bf16) 1024 inb_S2048x2048_S256x2048_1024_0 _ _ (lap (xm x0)) r q (fun p hp => ?_) (fun hh => ?_)
  · show k0_pay68 (scaleTile 1024 slices_S2048x1_o1024_0_S256x1 (kernelRun0_A.sl.r_17 c arg1 harg1 arg8 x0) (kernelRun0_A.sl.r_18 c arg1 harg1 arg8 x0) (kernelRun0_A.sl.v311 c arg1 harg1 arg7 arg8 x0)) (ix2 p q) = _
    exact scalePiece_at c arg1 harg1 arg7 arg8 x0 1024 slices_S2048x1_o1024_0_S256x1 (by omega) _ (fun p q => raw_4 c arg1 harg1 arg7 arg8 x0 p q (by have := p.isLt; omega)) p q hp
  · exact canonLap_4 c arg1 harg1 arg7 arg8 x0 r q (by omega)
theorem canonLap_6 (r q : Fin 2048) (h : r.val < 1536) : View.canon (kernelRun0_A.sl.HS0_14 (F := Ideal) c arg1 harg1 arg7 arg8 x0) (ix2 r q) = lap (xm x0) r q := by
  unfold kernelRun0_A.sl.HS0_14
  refine canon_cons_rows (Val := Elt Ideal) (e := .bf16) 1280 inb_S2048x2048_S256x2048_1280_0 _ _ (lap (xm x0)) r q (fun p hp => ?_) (fun hh => ?_)
  · show k0_pay68 (scaleTile 1280 slices_S2048x1_o1280_0_S256x1 (kernelRun0_A.sl.r_17 c arg1 harg1 arg8 x0) (kernelRun0_A.sl.r_18 c arg1 harg1 arg8 x0) (kernelRun0_A.sl.v333 c arg1 harg1 arg7 arg8 x0)) (ix2 p q) = _
    exact scalePiece_at c arg1 harg1 arg7 arg8 x0 1280 slices_S2048x1_o1280_0_S256x1 (by omega) _ (fun p q => raw_5 c arg1 harg1 arg7 arg8 x0 p q (by have := p.isLt; omega)) p q hp
  · exact canonLap_5 c arg1 harg1 arg7 arg8 x0 r q (by omega)
theorem canonLap_7 (r q : Fin 2048) (h : r.val < 1792) : View.canon (kernelRun0_A.sl.HS0_15 (F := Ideal) c arg1 harg1 arg7 arg8 x0) (ix2 r q) = lap (xm x0) r q := by
  unfold kernelRun0_A.sl.HS0_15
  refine canon_cons_rows (Val := Elt Ideal) (e := .bf16) 1536 inb_S2048x2048_S256x2048_1536_0 _ _ (lap (xm x0)) r q (fun p hp => ?_) (fun hh => ?_)
  · show k0_pay68 (scaleTile 1536 slices_S2048x1_o1536_0_S256x1 (kernelRun0_A.sl.r_17 c arg1 harg1 arg8 x0) (kernelRun0_A.sl.r_18 c arg1 harg1 arg8 x0) (kernelRun0_A.sl.v355 c arg1 harg1 arg7 arg8 x0)) (ix2 p q) = _
    exact scalePiece_at c arg1 harg1 arg7 arg8 x0 1536 slices_S2048x1_o1536_0_S256x1 (by omega) _ (fun p q => raw_6 c arg1 harg1 arg7 arg8 x0 p q (by have := p.isLt; omega)) p q hp
  · exact canonLap_6 c arg1 harg1 arg7 arg8 x0 r q (by omega)
theorem canonLap_8 (r q : Fin 2048) (h : r.val < 2048) : View.canon (kernelRun0_A.sl.HS0_16 (F := Ideal) c arg1 harg1 arg7 arg8 x0) (ix2 r q) = lap (xm x0) r q := by
  unfold kernelRun0_A.sl.HS0_16
  refine canon_cons_rows (Val := Elt Ideal) (e := .bf16) 1792 inb_S2048x2048_S256x2048_1792_0 _ _ (lap (xm x0)) r q (fun p hp => ?_) (fun hh => ?_)
  · show k0_pay68 (scaleTile 1792 slices_S2048x1_o1792_0_S256x1 (kernelRun0_A.sl.r_17 c arg1 harg1 arg8 x0) (kernelRun0_A.sl.r_18 c arg1 harg1 arg8 x0) (kernelRun0_A.sl.v377 c arg1 harg1 arg7 arg8 x0)) (ix2 p q) = _
    exact scalePiece_at c arg1 harg1 arg7 arg8 x0 1792 slices_S2048x1_o1792_0_S256x1 (by omega) _ (fun p q => raw_7 c arg1 harg1 arg7 arg8 x0 p q (by have := p.isLt; omega)) p q hp
  · exact canonLap_7 c arg1 harg1 arg7 arg8 x0 r q (by omega)

/-! ## Second pass: the first layer -/

include arg2 harg2 arg3 harg3 x1 x2

/-- The dense maps' sheets and the biases. -/
abbrev w1m : Fin 512 → Fin 512 → EReal := fun e f => x1 (ix3 (0 : Fin 1) e f)
abbrev w2m : Fin 512 → Fin 512 → EReal := fun e f => x3 (ix3 (0 : Fin 1) e f)

theorem dense1_eq (e f : Fin 512) : kernelRun0_A.sl.r_3 (F := Ideal) c arg2 harg2 x1 (ix2 e f) = x1 (ix3 (0 : Fin 1) e f) := by
  unfold kernelRun0_A.sl.r_3
  simp only [View.readAt_eq_ld, harg2.read_unread, View.ld_unit_zero (S := S1x512x512) zero3]
  exact dense1_at x1 e f
theorem bias1_eq : kernelRun0_A.sl.r_5 (F := Ideal) c arg3 harg3 x2 = x2 (ix1 (0 : Fin 1)) := by
  unfold kernelRun0_A.sl.r_5
  simp only [View.readAt_eq_ld, harg3.read_unread, View.ld_unit_zero (S := S1) zero1]
  exact bias1_at x2

/-- A stored block of the first layer agrees with the layer on its rows. -/
theorem layer1Piece_at (o : ℕ) (hs : S2048x1.Slices ![o, 0] S256x1) (ho : o + 256 ≤ 2048) (v223 : Vec Ideal S256x2048 .bf16)
    (h223 : ∀ (p : Fin 256) (q : Fin 2048), v223 (ix2 p q) = adj (xm x0) ⟨o + p.val, by have := p.isLt; omega⟩ q)
    (p : Fin 256) (g : Fin 512) (hp : o + p.val < 2048) :
    k0_pay69 (kernelRun0_A.sl.r c arg1 harg1 x0) (kernelRun0_A.sl.r_3 c arg2 harg2 x1) (kernelRun0_A.sl.r_5 c arg3 harg3 x2) (scaleTile o hs (kernelRun0_A.sl.r_17 c arg1 harg1 arg8 x0) (kernelRun0_A.sl.r_18 c arg1 harg1 arg8 x0) v223) (ix2 p g)
      = layer (xm x0) (xm x0) (w1m x1) (x2 (ix1 (0 : Fin 1))) ⟨o + p.val, hp⟩ g := by
  rw [layerStore_at, bias1_eq c arg1 harg1 arg2 harg2 arg3 harg3 arg7 arg8 x0 x1 x2]
  unfold layer
  refine congrArg (fun t => max (t + x2 (ix1 (0 : Fin 1))) zeroW) (Finset.sum_congr rfl fun f _ => ?_)
  rw [dense1_eq c arg1 harg1 arg2 harg2 arg3 harg3 arg7 arg8 x0 x1 x2]
  refine congrArg (· * x1 (ix3 (0 : Fin 1) f g)) (Finset.sum_congr rfl fun d _ => ?_)
  rw [rows_at c arg1 harg1 x0, scaleTile_at o hs ho _ _ _ (dinv (xm x0)) (adj (xm x0)) (dinvC_at c arg1 harg1 arg7 arg8 x0) (dinvR_at c arg1 harg1 arg7 arg8 x0) h223 p d]
  rfl

/-- What the second pass leaves in the third array: the first layer. -/
theorem canon_layer1 (r : Fin 2048) (g : Fin 512) :
    View.canon (kernelRun0_A.sl.HS2_8 (F := Ideal) c arg1 harg1 arg2 harg2 arg3 harg3 arg7 arg8 x0 x1 x2) (ix2 r g)
      = layer (xm x0) (xm x0) (w1m x1) (x2 (ix1 (0 : Fin 1))) r g := by
  unfold kernelRun0_A.sl.HS2_8
  refine canon_cons_rows (Val := Elt Ideal) (e := .bf16) 1792 inb_S2048x512_S256x512_1792_0 _ _ (layer (xm x0) (xm x0) (w1m x1) (x2 (ix1 (0 : Fin 1)))) r g (fun p hp => ?_) (fun h7 => ?_)
  · show k0_pay69 (kernelRun0_A.sl.r c arg1 harg1 x0) (kernelRun0_A.sl.r_3 c arg2 harg2 x1) (kernelRun0_A.sl.r_5 c arg3 harg3 x2) (scaleTile 1792 slices_S2048x1_o1792_0_S256x1 (kernelRun0_A.sl.r_17 c arg1 harg1 arg8 x0) (kernelRun0_A.sl.r_18 c arg1 harg1 arg8 x0) (kernelRun0_A.sl.v377 c arg1 harg1 arg7 arg8 x0)) (ix2 p g) = _
    exact layer1Piece_at c arg1 harg1 arg2 harg2 arg3 harg3 arg7 arg8 x0 x1 x2 1792 slices_S2048x1_o1792_0_S256x1 (by omega) _ (fun p q => raw_7 c arg1 harg1 arg7 arg8 x0 p q (by have := p.isLt; omega)) p g hp
  refine canon_cons_rows (Val := Elt Ideal) (e := .bf16) 1536 inb_S2048x512_S256x512_1536_0 _ _ (layer (xm x0) (xm x0) (w1m x1) (x2 (ix1 (0 : Fin 1)))) r g (fun p hp => ?_) (fun h6 => ?_)
  · show k0_pay69 (kernelRun0_A.sl.r c arg1 harg1 x0) (kernelRun0_A.sl.r_3 c arg2 harg2 x1) (kernelRun0_A.sl.r_5 c arg3 harg3 x2) (scaleTile 1536 slices_S2048x1_o1536_0_S256x1 (kernelRun0_A.sl.r_17 c arg1 harg1 arg8 x0) (kernelRun0_A.sl.r_18 c arg1 harg1 arg8 x0) (kernelRun0_A.sl.v355 c arg1 harg1 arg7 arg8 x0)) (ix2 p g) = _
    exact layer1Piece_at c arg1 harg1 arg2 harg2 arg3 harg3 arg7 arg8 x0 x1 x2 1536 slices_S2048x1_o1536_0_S256x1 (by omega) _ (fun p q => raw_6 c arg1 harg1 arg7 arg8 x0 p q (by have := p.isLt; omega)) p g hp
  refine canon_cons_rows (Val := Elt Ideal) (e := .bf16) 1280 inb_S2048x512_S256x512_1280_0 _ _ (layer (xm x0) (xm x0) (w1m x1) (x2 (ix1 (0 : Fin 1)))) r g (fun p hp => ?_) (fun h5 => ?_)
  · show k0_pay69 (kernelRun0_A.sl.r c arg1 harg1 x0) (kernelRun0_A.sl.r_3 c arg2 harg2 x1) (kernelRun0_A.sl.r_5 c arg3 harg3 x2) (scaleTile 1280 slices_S2048x1_o1280_0_S256x1 (kernelRun0_A.sl.r_17 c arg1 harg1 arg8 x0) (kernelRun0_A.sl.r_18 c arg1 harg1 arg8 x0) (kernelRun0_A.sl.v333 c arg1 harg1 arg7 arg8 x0)) (ix2 p g) = _
    exact layer1Piece_at c arg1 harg1 arg2 harg2 arg3 harg3 arg7 arg8 x0 x1 x2 1280 slices_S2048x1_o1280_0_S256x1 (by omega) _ (fun p q => raw_5 c arg1 harg1 arg7 arg8 x0 p q (by have := p.isLt; omega)) p g hp
  refine canon_cons_rows (Val := Elt Ideal) (e := .bf16) 1024 inb_S2048x512_S256x512_1024_0 _ _ (layer (xm x0) (xm x0) (w1m x1) (x2 (ix1 (0 : Fin 1)))) r g (fun p hp => ?_) (fun h4 => ?_)
  · show k0_pay69 (kernelRun0_A.sl.r c arg1 harg1 x0) (kernelRun0_A.sl.r_3 c arg2 harg2 x1) (kernelRun0_A.sl.r_5 c arg3 harg3 x2) (scaleTile 1024 slices_S2048x1_o1024_0_S256x1 (kernelRun0_A.sl.r_17 c arg1 harg1 arg8 x0) (kernelRun0_A.sl.r_18 c arg1 harg1 arg8 x0) (kernelRun0_A.sl.v311 c arg1 harg1 arg7 arg8 x0)) (ix2 p g) = _
    exact layer1Piece_at c arg1 harg1 arg2 harg2 arg3 harg3 arg7 arg8 x0 x1 x2 1024 slices_S2048x1_o1024_0_S256x1 (by omega) _ (fun p q => raw_4 c arg1 harg1 arg7 arg8 x0 p q (by have := p.isLt; omega)) p g hp
  refine canon_cons_rows (Val := Elt Ideal) (e := .bf16) 768 inb_S2048x512_S256x512_768_0 _ _ (layer (xm x0) (xm x0) (w1m x1) (x2 (ix1 (0 : Fin 1)))) r g (fun p hp => ?_) (fun h3 => ?_)
  · show k0_pay69 (kernelRun0_A.sl.r c arg1 harg1 x0) (kernelRun0_A.sl.r_3 c arg2 harg2 x1) (kernelRun0_A.sl.r_5 c arg3 harg3 x2) (scaleTile 768 slices_S2048x1_o768_0_S256x1 (kernelRun0_A.sl.r_17 c arg1 harg1 arg8 x0) (kernelRun0_A.sl.r_18 c arg1 harg1 arg8 x0) (kernelRun0_A.sl.v289 c arg1 harg1 arg7 arg8 x0)) (ix2 p g) = _
    exact layer1Piece_at c arg1 harg1 arg2 harg2 arg3 harg3 arg7 arg8 x0 x1 x2 768 slices_S2048x1_o768_0_S256x1 (by omega) _ (fun p q => raw_3 c arg1 harg1 arg7 arg8 x0 p q (by have := p.isLt; omega)) p g hp
  refine canon_cons_rows (Val := Elt Ideal) (e := .bf16) 512 inb_S2048x512_S256x512_512_0 _ _ (layer (xm x0) (xm x0) (w1m x1) (x2 (ix1 (0 : Fin 1)))) r g (fun p hp => ?_) (fun h2 => ?_)
  · show k0_pay69 (kernelRun0_A.sl.r c arg1 harg1 x0) (kernelRun0_A.sl.r_3 c arg2 harg2 x1) (kernelRun0_A.sl.r_5 c arg3 harg3 x2) (scaleTile 512 slices_S2048x1_o512_0_S256x1 (kernelRun0_A.sl.r_17 c arg1 harg1 arg8 x0) (kernelRun0_A.sl.r_18 c arg1 harg1 arg8 x0) (kernelRun0_A.sl.v267 c arg1 harg1 arg7 arg8 x0)) (ix2 p g) = _
    exact layer1Piece_at c arg1 harg1 arg2 harg2 arg3 harg3 arg7 arg8 x0 x1 x2 512 slices_S2048x1_o512_0_S256x1 (by omega) _ (fun p q => raw_2 c arg1 harg1 arg7 arg8 x0 p q (by have := p.isLt; omega)) p g hp
  refine canon_cons_rows (Val := Elt Ideal) (e := .bf16) 256 inb_S2048x512_S256x512_256_0 _ _ (layer (xm x0) (xm x0) (w1m x1) (x2 (ix1 (0 : Fin 1)))) r g (fun p hp => ?_) (fun h1 => ?_)
  · show k0_pay69 (kernelRun0_A.sl.r c arg1 harg1 x0) (kernelRun0_A.sl.r_3 c arg2 harg2 x1) (kernelRun0_A.sl.r_5 c arg3 harg3 x2) (scaleTile 256 slices_S2048x1_o256_0_S256x1 (kernelRun0_A.sl.r_17 c arg1 harg1 arg8 x0) (kernelRun0_A.sl.r_18 c arg1 harg1 arg8 x0) (kernelRun0_A.sl.v245 c arg1 harg1 arg7 arg8 x0)) (ix2 p g) = _
    exact layer1Piece_at c arg1 harg1 arg2 harg2 arg3 harg3 arg7 arg8 x0 x1 x2 256 slices_S2048x1_o256_0_S256x1 (by omega) _ (fun p q => raw_1 c arg1 harg1 arg7 arg8 x0 p q (by have := p.isLt; omega)) p g hp
  refine canon_cons_rows (Val := Elt Ideal) (e := .bf16) 0 inb_S2048x512_S256x512_0_0 _ _ (layer (xm x0) (xm x0) (w1m x1) (x2 (ix1 (0 : Fin 1)))) r g (fun p hp => ?_) (fun h0 => ?_)
  · show k0_pay69 (kernelRun0_A.sl.r c arg1 harg1 x0) (kernelRun0_A.sl.r_3 c arg2 harg2 x1) (kernelRun0_A.sl.r_5 c arg3 harg3 x2) (scaleTile 0 slices_S2048x1_o0_0_S256x1 (kernelRun0_A.sl.r_17 c arg1 harg1 arg8 x0) (kernelRun0_A.sl.r_18 c arg1 harg1 arg8 x0) (kernelRun0_A.sl.v223 c arg1 harg1 arg7 x0)) (ix2 p g) = _
    exact layer1Piece_at c arg1 harg1 arg2 harg2 arg3 harg3 arg7 arg8 x0 x1 x2 0 slices_S2048x1_o0_0_S256x1 (by omega) _ (fun p q => raw_0 c arg1 harg1 arg7 arg8 x0 p q (by have := p.isLt; omega)) p g hp
  exfalso; have := r.isLt; omega

/-! ## Third pass: the first layer and the Laplacian read back -/

include arg9

theorem layer1_at (r : Fin 2048) (g : Fin 512) :
    kernelRun0_A.sl.v399 (F := Ideal) c arg1 harg1 arg2 harg2 arg3 harg3 arg7 arg8 arg9 x0 x1 x2 (ix2 r g)
      = layer (xm x0) (xm x0) (w1m x1) (x2 (ix1 (0 : Fin 1))) r g := by
  unfold kernelRun0_A.sl.v399
  rw [readCov_rows_apply (Val := Elt Ideal) (e := .bf16) arg9.view _ 0 inb_S2048x512_S2048x512_0_0 r g (by have := r.isLt; omega), zero_add_fin c arg1 harg1 arg7 arg8 x0]
  exact canon_layer1 c arg1 harg1 arg2 harg2 arg3 harg3 arg7 arg8 x0 x1 x2 r g

omit arg2 harg2 arg3 harg3 x1 x2 arg9 in
theorem lapT_0 (p : Fin 256) (q : Fin 2048) (hp : 0 + p.val < 2048) : kernelRun0_A.sl.v400 (F := Ideal) c arg1 harg1 arg7 arg8 x0 (ix2 p q) = lap (xm x0) ⟨0 + p.val, hp⟩ q := by
  unfold kernelRun0_A.sl.v400
  rw [readCov_rows_apply (Val := Elt Ideal) (e := .bf16) arg7.view _ 0 inb_S2048x2048_S256x2048_0_0 p q hp]
  exact canonLap_8 c arg1 harg1 arg7 arg8 x0 _ q (by have := p.isLt; show 0 + p.val < 2048; omega)
omit arg2 harg2 arg3 harg3 x1 x2 arg9 in
theorem lapT_1 (p : Fin 256) (q : Fin 2048) (hp : 256 + p.val < 2048) : kernelRun0_A.sl.v411 (F := Ideal) c arg1 harg1 arg7 arg8 x0 (ix2 p q) = lap (xm x0) ⟨256 + p.val, hp⟩ q := by
  unfold kernelRun0_A.sl.v411
  rw [readCov_rows_apply (Val := Elt Ideal) (e := .bf16) arg7.view _ 256 inb_S2048x2048_S256x2048_256_0 p q hp]
  exact canonLap_8 c arg1 harg1 arg7 arg8 x0 _ q (by have := p.isLt; show 256 + p.val < 2048; omega)
omit arg2 harg2 arg3 harg3 x1 x2 arg9 in
theorem lapT_2 (p : Fin 256) (q : Fin 2048) (hp : 512 + p.val < 2048) : kernelRun0_A.sl.v422 (F := Ideal) c arg1 harg1 arg7 arg8 x0 (ix2 p q) = lap (xm x0) ⟨512 + p.val, hp⟩ q := by
  unfold kernelRun0_A.sl.v422
  rw [readCov_rows_apply (Val := Elt Ideal) (e := .bf16) arg7.view _ 512 inb_S2048x2048_S256x2048_512_0 p q hp]
  exact canonLap_8 c arg1 harg1 arg7 arg8 x0 _ q (by have := p.isLt; show 512 + p.val < 2048; omega)
omit arg2 harg2 arg3 harg3 x1 x2 arg9 in
theorem lapT_3 (p : Fin 256) (q : Fin 2048) (hp : 768 + p.val < 2048) : kernelRun0_A.sl.v433 (F := Ideal) c arg1 harg1 arg7 arg8 x0 (ix2 p q) = lap (xm x0) ⟨768 + p.val, hp⟩ q := by
  unfold kernelRun0_A.sl.v433
  rw [readCov_rows_apply (Val := Elt Ideal) (e := .bf16) arg7.view _ 768 inb_S2048x2048_S256x2048_768_0 p q hp]
  exact canonLap_8 c arg1 harg1 arg7 arg8 x0 _ q (by have := p.isLt; show 768 + p.val < 2048; omega)
omit arg2 harg2 arg3 harg3 x1 x2 arg9 in
theorem lapT_4 (p : Fin 256) (q : Fin 2048) (hp : 1024 + p.val < 2048) : kernelRun0_A.sl.v444 (F := Ideal) c arg1 harg1 arg7 arg8 x0 (ix2 p q) = lap (xm x0) ⟨1024 + p.val, hp⟩ q := by
  unfold kernelRun0_A.sl.v444
  rw [readCov_rows_apply (Val := Elt Ideal) (e := .bf16) arg7.view _ 1024 inb_S2048x2048_S256x2048_1024_0 p q hp]
  exact canonLap_8 c arg1 harg1 arg7 arg8 x0 _ q (by have := p.isLt; show 1024 + p.val < 2048; omega)
omit arg2 harg2 arg3 harg3 x1 x2 arg9 in
theorem lapT_5 (p : Fin 256) (q : Fin 2048) (hp : 1280 + p.val < 2048) : kernelRun0_A.sl.v455 (F := Ideal) c arg1 harg1 arg7 arg8 x0 (ix2 p q) = lap (xm x0) ⟨1280 + p.val, hp⟩ q := by
  unfold kernelRun0_A.sl.v455
  rw [readCov_rows_apply (Val := Elt Ideal) (e := .bf16) arg7.view _ 1280 inb_S2048x2048_S256x2048_1280_0 p q hp]
  exact canonLap_8 c arg1 harg1 arg7 arg8 x0 _ q (by have := p.isLt; show 1280 + p.val < 2048; omega)
omit arg2 harg2 arg3 harg3 x1 x2 arg9 in
theorem lapT_6 (p : Fin 256) (q : Fin 2048) (hp : 1536 + p.val < 2048) : kernelRun0_A.sl.v466 (F := Ideal) c arg1 harg1 arg7 arg8 x0 (ix2 p q) = lap (xm x0) ⟨1536 + p.val, hp⟩ q := by
  unfold kernelRun0_A.sl.v466
  rw [readCov_rows_apply (Val := Elt Ideal) (e := .bf16) arg7.view _ 1536 inb_S2048x2048_S256x2048_1536_0 p q hp]
  exact canonLap_8 c arg1 harg1 arg7 arg8 x0 _ q (by have := p.isLt; show 1536 + p.val < 2048; omega)
omit arg2 harg2 arg3 harg3 x1 x2 arg9 in
theorem lapT_7 (p : Fin 256) (q : Fin 2048) (hp : 1792 + p.val < 2048) : kernelRun0_A.sl.v477 (F := Ideal) c arg1 harg1 arg7 arg8 x0 (ix2 p q) = lap (xm x0) ⟨1792 + p.val, hp⟩ q := by
  unfold kernelRun0_A.sl.v477
  rw [readCov_rows_apply (Val := Elt Ideal) (e := .bf16) arg7.view _ 1792 inb_S2048x2048_S256x2048_1792_0 p q hp]
  exact canonLap_8 c arg1 harg1 arg7 arg8 x0 _ q (by have := p.isLt; show 1792 + p.val < 2048; omega)

/-! ## Third pass: the second layer, into the output block -/

include arg4 harg4 arg5 harg5 x3 x4

theorem dense2_eq (e f : Fin 512) : kernelRun0_A.sl.r_4 (F := Ideal) c arg4 harg4 x3 (ix2 e f) = x3 (ix3 (0 : Fin 1) e f) := by
  unfold kernelRun0_A.sl.r_4
  simp only [View.readAt_eq_ld, harg4.read_unread, View.ld_unit_zero (S := S1x512x512) zero3]
  exact dense2_at x3 e f
theorem bias2_eq : kernelRun0_A.sl.r_6 (F := Ideal) c arg5 harg5 x4 = x4 (ix1 (0 : Fin 1)) := by
  unfold kernelRun0_A.sl.r_6
  simp only [View.readAt_eq_ld, harg5.read_unread, View.ld_unit_zero (S := S1) zero1]
  exact bias2_at x4

/-- A stored block of the output agrees with the two-layer result on its rows. -/
theorem layer2Piece_at (o : ℕ) (vL : Vec Ideal S256x2048 .bf16)
    (hL : ∀ (p : Fin 256) (q : Fin 2048) (hp : o + p.val < 2048), vL (ix2 p q) = lap (xm x0) ⟨o + p.val, hp⟩ q)
    (p : Fin 256) (g : Fin 512) (hp : o + p.val < 2048) :
    k0_pay70 (kernelRun0_A.sl.r_4 c arg4 harg4 x3) (kernelRun0_A.sl.r_6 c arg5 harg5 x4) (kernelRun0_A.sl.v399 c arg1 harg1 arg2 harg2 arg3 harg3 arg7 arg8 arg9 x0 x1 x2) vL (ix3 (0 : Fin 1) p g)
      = out (xm x0) (w1m x1) (x2 (ix1 (0 : Fin 1))) (w2m x3) (x4 (ix1 (0 : Fin 1))) ⟨o + p.val, hp⟩ g := by
  rw [layerOut_at, bias2_eq c arg1 harg1 arg2 harg2 arg3 harg3 arg4 harg4 arg5 harg5 arg7 arg8 arg9 x0 x1 x2 x3 x4]
  unfold out layer
  refine congrArg (fun t => max (t + x4 (ix1 (0 : Fin 1))) zeroW) (Finset.sum_congr rfl fun f _ => ?_)
  rw [dense2_eq c arg1 harg1 arg2 harg2 arg3 harg3 arg4 harg4 arg5 harg5 arg7 arg8 arg9 x0 x1 x2 x3 x4]
  refine congrArg (· * x3 (ix3 (0 : Fin 1) f g)) (Finset.sum_congr rfl fun d _ => ?_)
  rw [hL p d hp, layer1_at c arg1 harg1 arg2 harg2 arg3 harg3 arg7 arg8 arg9 x0 x1 x2]
  rfl

end Passes

/-! ## The output block -/

/-- The output block after the body, at row r and column g: two layers over the block's own 2048 × 512 features. -/
theorem outBlock_at (c : Dev nD) (i : grid0.Coords) (arg1 : Memref sig .tc .vmem S1x2048x512 .f32) (harg1 : arg1.IsWhole) (arg2 : Memref sig .tc .vmem S1x512x512 .f32) (harg2 : arg2.IsWhole) (arg3 : Memref sig .tc .vmem S1 .f32) (harg3 : arg3.IsWhole) (arg4 : Memref sig .tc .vmem S1x512x512 .f32) (harg4 : arg4.IsWhole) (arg5 : Memref sig .tc .vmem S1 .f32) (harg5 : arg5.IsWhole) (arg6 : Memref sig .tc .vmem S1x2048x512 .f32) (harg6 : arg6.IsWhole) (arg7 : Memref sig .tc .vmem S2048x2048 .bf16) (harg7 : arg7.IsWhole) (arg8 : Memref sig .tc .vmem S2048x1 .f32) (harg8 : arg8.IsWhole) (arg9 : Memref sig .tc .vmem S2048x512 .bf16) (harg9 : arg9.IsWhole)
    (x0 : Vec Ideal S1x2048x512 .f32) (x1 : Vec Ideal S1x512x512 .f32) (x2 : Vec Ideal S1 .f32) (x3 : Vec Ideal S1x512x512 .f32) (x4 : Vec Ideal S1 .f32) (r : Fin 2048) (g : Fin 512) :
    out0_A_5 (F := Ideal) c i arg1 harg1 arg2 harg2 arg3 harg3 arg4 harg4 arg5 harg5 arg6 harg6 arg7 harg7 arg8 harg8 arg9 harg9 x0 x1 x2 x3 x4 (ix3 (0 : Fin 1) r g)
      = Cert.Gcn.Spec.out (fun c f => x0 (ix3 (0 : Fin 1) c f)) (fun e f => x1 (ix3 (0 : Fin 1) e f)) (x2 (ix1 (0 : Fin 1)))
          (fun e f => x3 (ix3 (0 : Fin 1) e f)) (x4 (ix1 (0 : Fin 1))) r g := by
  unfold out0_A_5
  rw [View.read_writes_junk_eq_canon]
  unfold kernelRun0_A
  dsimp only
  refine canon_cons_rows3 (Val := Elt Ideal) (e := .f32) 1792 inb_S1x2048x512_S1x256x512_0_1792_0 _ _ (out (xm x0) (w1m x1) (x2 (ix1 (0 : Fin 1))) (w2m x3) (x4 (ix1 (0 : Fin 1)))) r g (fun p hp => ?_) (fun h7 => ?_)
  · show k0_pay70 (kernelRun0_A.sl.r_4 c arg4 harg4 x3) (kernelRun0_A.sl.r_6 c arg5 harg5 x4) (kernelRun0_A.sl.v399 c arg1 harg1 arg2 harg2 arg3 harg3 arg7 arg8 arg9 x0 x1 x2) (kernelRun0_A.sl.v477 c arg1 harg1 arg7 arg8 x0) (ix3 (0 : Fin 1) p g) = _
    exact layer2Piece_at c arg1 harg1 arg2 harg2 arg3 harg3 arg4 harg4 arg5 harg5 arg7 arg8 arg9 x0 x1 x2 x3 x4 1792 _ (fun p q hp => lapT_7 c arg1 harg1 arg7 arg8 x0 p q hp) p g hp
  refine canon_cons_rows3 (Val := Elt Ideal) (e := .f32) 1536 inb_S1x2048x512_S1x256x512_0_1536_0 _ _ (out (xm x0) (w1m x1) (x2 (ix1 (0 : Fin 1))) (w2m x3) (x4 (ix1 (0 : Fin 1)))) r g (fun p hp => ?_) (fun h6 => ?_)
  · show k0_pay70 (kernelRun0_A.sl.r_4 c arg4 harg4 x3) (kernelRun0_A.sl.r_6 c arg5 harg5 x4) (kernelRun0_A.sl.v399 c arg1 harg1 arg2 harg2 arg3 harg3 arg7 arg8 arg9 x0 x1 x2) (kernelRun0_A.sl.v466 c arg1 harg1 arg7 arg8 x0) (ix3 (0 : Fin 1) p g) = _
    exact layer2Piece_at c arg1 harg1 arg2 harg2 arg3 harg3 arg4 harg4 arg5 harg5 arg7 arg8 arg9 x0 x1 x2 x3 x4 1536 _ (fun p q hp => lapT_6 c arg1 harg1 arg7 arg8 x0 p q hp) p g hp
  refine canon_cons_rows3 (Val := Elt Ideal) (e := .f32) 1280 inb_S1x2048x512_S1x256x512_0_1280_0 _ _ (out (xm x0) (w1m x1) (x2 (ix1 (0 : Fin 1))) (w2m x3) (x4 (ix1 (0 : Fin 1)))) r g (fun p hp => ?_) (fun h5 => ?_)
  · show k0_pay70 (kernelRun0_A.sl.r_4 c arg4 harg4 x3) (kernelRun0_A.sl.r_6 c arg5 harg5 x4) (kernelRun0_A.sl.v399 c arg1 harg1 arg2 harg2 arg3 harg3 arg7 arg8 arg9 x0 x1 x2) (kernelRun0_A.sl.v455 c arg1 harg1 arg7 arg8 x0) (ix3 (0 : Fin 1) p g) = _
    exact layer2Piece_at c arg1 harg1 arg2 harg2 arg3 harg3 arg4 harg4 arg5 harg5 arg7 arg8 arg9 x0 x1 x2 x3 x4 1280 _ (fun p q hp => lapT_5 c arg1 harg1 arg7 arg8 x0 p q hp) p g hp
  refine canon_cons_rows3 (Val := Elt Ideal) (e := .f32) 1024 inb_S1x2048x512_S1x256x512_0_1024_0 _ _ (out (xm x0) (w1m x1) (x2 (ix1 (0 : Fin 1))) (w2m x3) (x4 (ix1 (0 : Fin 1)))) r g (fun p hp => ?_) (fun h4 => ?_)
  · show k0_pay70 (kernelRun0_A.sl.r_4 c arg4 harg4 x3) (kernelRun0_A.sl.r_6 c arg5 harg5 x4) (kernelRun0_A.sl.v399 c arg1 harg1 arg2 harg2 arg3 harg3 arg7 arg8 arg9 x0 x1 x2) (kernelRun0_A.sl.v444 c arg1 harg1 arg7 arg8 x0) (ix3 (0 : Fin 1) p g) = _
    exact layer2Piece_at c arg1 harg1 arg2 harg2 arg3 harg3 arg4 harg4 arg5 harg5 arg7 arg8 arg9 x0 x1 x2 x3 x4 1024 _ (fun p q hp => lapT_4 c arg1 harg1 arg7 arg8 x0 p q hp) p g hp
  refine canon_cons_rows3 (Val := Elt Ideal) (e := .f32) 768 inb_S1x2048x512_S1x256x512_0_768_0 _ _ (out (xm x0) (w1m x1) (x2 (ix1 (0 : Fin 1))) (w2m x3) (x4 (ix1 (0 : Fin 1)))) r g (fun p hp => ?_) (fun h3 => ?_)
  · show k0_pay70 (kernelRun0_A.sl.r_4 c arg4 harg4 x3) (kernelRun0_A.sl.r_6 c arg5 harg5 x4) (kernelRun0_A.sl.v399 c arg1 harg1 arg2 harg2 arg3 harg3 arg7 arg8 arg9 x0 x1 x2) (kernelRun0_A.sl.v433 c arg1 harg1 arg7 arg8 x0) (ix3 (0 : Fin 1) p g) = _
    exact layer2Piece_at c arg1 harg1 arg2 harg2 arg3 harg3 arg4 harg4 arg5 harg5 arg7 arg8 arg9 x0 x1 x2 x3 x4 768 _ (fun p q hp => lapT_3 c arg1 harg1 arg7 arg8 x0 p q hp) p g hp
  refine canon_cons_rows3 (Val := Elt Ideal) (e := .f32) 512 inb_S1x2048x512_S1x256x512_0_512_0 _ _ (out (xm x0) (w1m x1) (x2 (ix1 (0 : Fin 1))) (w2m x3) (x4 (ix1 (0 : Fin 1)))) r g (fun p hp => ?_) (fun h2 => ?_)
  · show k0_pay70 (kernelRun0_A.sl.r_4 c arg4 harg4 x3) (kernelRun0_A.sl.r_6 c arg5 harg5 x4) (kernelRun0_A.sl.v399 c arg1 harg1 arg2 harg2 arg3 harg3 arg7 arg8 arg9 x0 x1 x2) (kernelRun0_A.sl.v422 c arg1 harg1 arg7 arg8 x0) (ix3 (0 : Fin 1) p g) = _
    exact layer2Piece_at c arg1 harg1 arg2 harg2 arg3 harg3 arg4 harg4 arg5 harg5 arg7 arg8 arg9 x0 x1 x2 x3 x4 512 _ (fun p q hp => lapT_2 c arg1 harg1 arg7 arg8 x0 p q hp) p g hp
  refine canon_cons_rows3 (Val := Elt Ideal) (e := .f32) 256 inb_S1x2048x512_S1x256x512_0_256_0 _ _ (out (xm x0) (w1m x1) (x2 (ix1 (0 : Fin 1))) (w2m x3) (x4 (ix1 (0 : Fin 1)))) r g (fun p hp => ?_) (fun h1 => ?_)
  · show k0_pay70 (kernelRun0_A.sl.r_4 c arg4 harg4 x3) (kernelRun0_A.sl.r_6 c arg5 harg5 x4) (kernelRun0_A.sl.v399 c arg1 harg1 arg2 harg2 arg3 harg3 arg7 arg8 arg9 x0 x1 x2) (kernelRun0_A.sl.v411 c arg1 harg1 arg7 arg8 x0) (ix3 (0 : Fin 1) p g) = _
    exact layer2Piece_at c arg1 harg1 arg2 harg2 arg3 harg3 arg4 harg4 arg5 harg5 arg7 arg8 arg9 x0 x1 x2 x3 x4 256 _ (fun p q hp => lapT_1 c arg1 harg1 arg7 arg8 x0 p q hp) p g hp
  refine canon_cons_rows3 (Val := Elt Ideal) (e := .f32) 0 inb_S1x2048x512_S1x256x512_0_0_0 _ _ (out (xm x0) (w1m x1) (x2 (ix1 (0 : Fin 1))) (w2m x3) (x4 (ix1 (0 : Fin 1)))) r g (fun p hp => ?_) (fun h0 => ?_)
  · show k0_pay70 (kernelRun0_A.sl.r_4 c arg4 harg4 x3) (kernelRun0_A.sl.r_6 c arg5 harg5 x4) (kernelRun0_A.sl.v399 c arg1 harg1 arg2 harg2 arg3 harg3 arg7 arg8 arg9 x0 x1 x2) (kernelRun0_A.sl.v400 c arg1 harg1 arg7 arg8 x0) (ix3 (0 : Fin 1) p g) = _
    exact layer2Piece_at c arg1 harg1 arg2 harg2 arg3 harg3 arg4 harg4 arg5 harg5 arg7 arg8 arg9 x0 x1 x2 x3 x4 0 _ (fun p q hp => lapT_0 c arg1 harg1 arg7 arg8 x0 p q hp) p g hp
  exfalso; have := r.isLt; omega

end Cert.Gcn.Kernel

end
-- ==== Proof.KernelValue.lean ====
/-
  From one block to the whole array.

  The grid has one axis of eight points, one per batch entry.  Grid point t stages block (t, 0, 0) of the
  features, a 1 × 2048 × 512 slab, stages the two weight arrays and the two bias arrays whole, and writes its
  result back to block (t, 0, 0) of the output.  A block's coordinate in its array is always
  block index × block size + the coordinate inside the block, so the slab of point t is batch entry t of the
  features and of the output, and the weights and biases are read where they stand.

  Every point therefore writes back the restriction to its own slab of one whole-array function, the graph
  convolution G of Spec.lean applied to the five argument arrays; the eight slabs tile the output (batch entry b
  is covered by point b); so after the run the output array is G of the arguments.
-/
import proofs.«162113_j20693152432864_1_alg».proof.Proof.KernelBlock
import proofs.«162113_j20693152432864_1_alg».proof.Proof.Gen.KernelIdeal.Value
import proofs.«162113_j20693152432864_1_alg».proof.Proof.Spec
import Idealize.ShloMosaic.Lib.Pipeline.Value
import Idealize.ShloMosaic.Lib.ValueIdx

noncomputable section

namespace Cert.Gcn.KernelValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ### The index maps, decided over the eight grid points -/

/-- The features' window and the output's window sit at block (t, 0, 0); the weights' and the biases' windows at
    block 0 on every axis. -/
theorem index_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-- The batch entry that grid point t works on. -/
def entry (t : Fin cfg0.N) : Fin 8 := Fin.cast N_0 t

/-! ### Where a block's entries sit in their array: block index × block size + the coordinate inside the block -/

/-- The output's slab at point t is batch entry t. -/
theorem out_emb (t : Fin cfg0.N) (r : Fin 2048) (g : Fin 512) :
    ((cfg0.win 5).blk t).view.emb (ix3 (0 : Fin 1) r g) = ix3 (entry t) r g := by
  obtain ⟨-, -, -, -, -, -, -, -, -, -, -, e0, e1, e2⟩ := index_facts t
  funext a; apply Fin.ext
  match a with
  | ⟨0, _⟩ => show win0_5.index t (0 : Fin 3) * 1 + 1 * 0 = t.val; omega
  | ⟨1, _⟩ => show win0_5.index t (1 : Fin 3) * 2048 + 1 * r.val = r.val; omega
  | ⟨2, _⟩ => show win0_5.index t (2 : Fin 3) * 512 + 1 * g.val = g.val; omega

/-- The features' slab at point t is batch entry t. -/
theorem in0_emb (t : Fin cfg0.N) (r : Fin 2048) (f : Fin 512) :
    ((cfg0.win 0).blk t).view.emb (ix3 (0 : Fin 1) r f) = ix3 (entry t) r f := by
  obtain ⟨e0, e1, e2, -⟩ := index_facts t
  funext a; apply Fin.ext
  match a with
  | ⟨0, _⟩ => show win0_0.index t (0 : Fin 3) * 1 + 1 * 0 = t.val; omega
  | ⟨1, _⟩ => show win0_0.index t (1 : Fin 3) * 2048 + 1 * r.val = r.val; omega
  | ⟨2, _⟩ => show win0_0.index t (2 : Fin 3) * 512 + 1 * f.val = f.val; omega

/-- The first weights are staged whole. -/
theorem in1_emb (t : Fin cfg0.N) (e f : Fin 512) :
    ((cfg0.win 1).blk t).view.emb (ix3 (0 : Fin 1) e f) = ix3 (0 : Fin 1) e f := by
  obtain ⟨-, -, -, e0, e1, e2, -⟩ := index_facts t
  funext a; apply Fin.ext
  match a with
  | ⟨0, _⟩ => show win0_1.index t (0 : Fin 3) * 1 + 1 * 0 = 0; omega
  | ⟨1, _⟩ => show win0_1.index t (1 : Fin 3) * 512 + 1 * e.val = e.val; omega
  | ⟨2, _⟩ => show win0_1.index t (2 : Fin 3) * 512 + 1 * f.val = f.val; omega

/-- The first bias is staged whole. -/
theorem in2_emb (t : Fin cfg0.N) :
    ((cfg0.win 2).blk t).view.emb (ix1 (0 : Fin 1)) = ix1 (0 : Fin 1) := by
  obtain ⟨-, -, -, -, -, -, e0, -⟩ := index_facts t
  funext a; apply Fin.ext
  match a with
  | ⟨0, _⟩ => show win0_2.index t (0 : Fin 1) * 1 + 1 * 0 = 0; omega

/-- The second weights are staged whole. -/
theorem in3_emb (t : Fin cfg0.N) (e f : Fin 512) :
    ((cfg0.win 3).blk t).view.emb (ix3 (0 : Fin 1) e f) = ix3 (0 : Fin 1) e f := by
  obtain ⟨-, -, -, -, -, -, -, e0, e1, e2, -⟩ := index_facts t
  funext a; apply Fin.ext
  match a with
  | ⟨0, _⟩ => show win0_3.index t (0 : Fin 3) * 1 + 1 * 0 = 0; omega
  | ⟨1, _⟩ => show win0_3.index t (1 : Fin 3) * 512 + 1 * e.val = e.val; omega
  | ⟨2, _⟩ => show win0_3.index t (2 : Fin 3) * 512 + 1 * f.val = f.val; omega

/-- The second bias is staged whole. -/
theorem in4_emb (t : Fin cfg0.N) :
    ((cfg0.win 4).blk t).view.emb (ix1 (0 : Fin 1)) = ix1 (0 : Fin 1) := by
  obtain ⟨-, -, -, -, -, -, -, -, -, -, e0, -⟩ := index_facts t
  funext a; apply Fin.ext
  match a with
  | ⟨0, _⟩ => show win0_4.index t (0 : Fin 1) * 1 + 1 * 0 = 0; omega

/-! ### Each staged block, read where the output's slab says -/

theorem iblk0_at (c : Dev nD) (t : Fin cfg0.N) (r : Fin 2048) (f : Fin 512) :
    (iblk m c 0 t : Vec Ideal S1x2048x512 .f32) (ix3 (0 : Fin 1) r f)
      = (V m c main_arg0 : S8x2048x512.Idx → EReal) (ix3 (entry t) r f) := by
  show V m c main_arg0 (((cfg0.win 0).blk t).view.emb (ix3 (0 : Fin 1) r f)) = _
  exact congrArg (V m c main_arg0) (in0_emb t r f)

theorem iblk1_at (c : Dev nD) (t : Fin cfg0.N) (e f : Fin 512) :
    (iblk m c 1 t : Vec Ideal S1x512x512 .f32) (ix3 (0 : Fin 1) e f)
      = (V m c main_arg1 : S1x512x512.Idx → EReal) (ix3 (0 : Fin 1) e f) := by
  show V m c main_arg1 (((cfg0.win 1).blk t).view.emb (ix3 (0 : Fin 1) e f)) = _
  exact congrArg (V m c main_arg1) (in1_emb t e f)

theorem iblk2_at (c : Dev nD) (t : Fin cfg0.N) :
    (iblk m c 2 t : Vec Ideal S1 .f32) (ix1 (0 : Fin 1)) = (V m c main_arg2 : S1.Idx → EReal) (ix1 (0 : Fin 1)) := by
  show V m c main_arg2 (((cfg0.win 2).blk t).view.emb (ix1 (0 : Fin 1))) = _
  exact congrArg (V m c main_arg2) (in2_emb t)

theorem iblk3_at (c : Dev nD) (t : Fin cfg0.N) (e f : Fin 512) :
    (iblk m c 3 t : Vec Ideal S1x512x512 .f32) (ix3 (0 : Fin 1) e f)
      = (V m c main_arg3 : S1x512x512.Idx → EReal) (ix3 (0 : Fin 1) e f) := by
  show V m c main_arg3 (((cfg0.win 3).blk t).view.emb (ix3 (0 : Fin 1) e f)) = _
  exact congrArg (V m c main_arg3) (in3_emb t e f)

theorem iblk4_at (c : Dev nD) (t : Fin cfg0.N) :
    (iblk m c 4 t : Vec Ideal S1 .f32) (ix1 (0 : Fin 1)) = (V m c main_arg4 : S1.Idx → EReal) (ix1 (0 : Fin 1)) := by
  show V m c main_arg4 (((cfg0.win 4).blk t).view.emb (ix1 (0 : Fin 1))) = _
  exact congrArg (V m c main_arg4) (in4_emb t)

/-! ### What a point writes back, the cover, and the array after the run -/

/-- Point t writes back the restriction of G of the argument arrays to its slab. -/
theorem flushed_eq (c : Dev nD) (t : Fin cfg0.N) :
    (dats m 0 c).flushed 5 t = ((cfg0.win 5).blk t).view.read (Elt Ideal) (Spec.G (V m c main_arg0) (V m c main_arg1) (V m c main_arg2) (V m c main_arg3) (V m c main_arg4)) := by
  rw [Cert.KernelIdeal.Value.flushed5_A]
  funext y
  obtain ⟨z, r, g, rfl⟩ : ∃ (z : Fin 1) (r : Fin 2048) (g : Fin 512), y = ix3 z r g := ⟨y 0, y 1, y 2, eq_ix3 y⟩
  obtain rfl : z = 0 := Subsingleton.elim _ _
  refine (Cert.Gcn.Kernel.outBlock_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) r g).trans ?_
  show _ = (Spec.G (V m c main_arg0) (V m c main_arg1) (V m c main_arg2) (V m c main_arg3) (V m c main_arg4)) (((cfg0.win 5).blk t).view.emb (ix3 (0 : Fin 1) r g))
  rw [out_emb]
  unfold Spec.G
  simp only [iblk0_at, iblk1_at, iblk2_at, iblk3_at, iblk4_at]

/-- An index of the output array is in point t's slab iff each coordinate is in the slab's range on its axis. -/
theorem mem_blk (t : Fin cfg0.N) (i : S8x2048x512.Idx) :
    i ∈ ((cfg0.win 5).blk t).view.set ↔ ∀ a : Fin 3, win0_5.index t a * S1x2048x512.size a ≤ (i a).val ∧ (i a).val < win0_5.index t a * S1x2048x512.size a + S1x2048x512.size a := by
  show i ∈ ((View.whole main_v0).slice (win0_5.rect t)).set ↔ _
  rw [View.set_slice_whole, Rect.mem_set_unit]
  exact Iff.rfl

/-- The eight slabs tile the output: batch entry b is covered by point b. -/
theorem cover (i : S8x2048x512.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 512 := (i 2).isLt
  have hN : cfg0.N = 8 := N_0
  obtain ⟨t, ht⟩ : ∃ t : Fin cfg0.N, t.val = (i 0).val := ⟨⟨(i 0).val, by omega⟩, rfl⟩
  refine ⟨t, flush0_5 t, ?_⟩
  rw [mem_blk]
  obtain ⟨-, -, -, -, -, -, -, -, -, -, -, e0, e1, e2⟩ := index_facts t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 512 ≤ (i 2).val ∧ (i 2).val < win0_5.index t (2 : Fin 3) * 512 + 512; omega

/-- The output array after the run is the graph convolution G of the five argument arrays. -/
theorem final (c : Dev nD) :
    (dats m 0 c).arrAt 5 cfg0.N = Spec.G (V m c main_arg0) (V m c main_arg1) (V m c main_arg2) (V m c main_arg3) (V m c main_arg4) :=
  (dats m 0 c).arrAt_eq_of_cover 5 (Spec.G (V m c main_arg0) (V m c main_arg1) (V m c main_arg2) (V m c main_arg3) (V m c main_arg4)) (fun t _ => flushed_eq m c t) cover

/-- The kernel's run: the output array ends at G of the arguments, the arguments unchanged. -/
theorem run : θ_run defs (onTc (τ := τ) (main (F := Ideal))) ⟨m, fun _ => 0, ρ⟩ fun r => ∀ c : Dev nD,
      r.2.mem ((c : Thread nD τ).loc main_v0) = Spec.G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Gcn.KernelValue

end
-- ==== Proof.RefIsSpec.lean ====
/-
  The reference program computes the graph convolution of Spec.lean, operation by operation.

  For one batch entry b write X c f for the feature x0 (b, c, f).  The program first forms the row norms
  sqrt (0 + Σ_f X c f ²) as an array with a last axis of length one, contracts that axis to get the products
  nrm c · nrm d, divides the Gram matrix Σ_f X c f · X d f by them, clips below at zero, compares with the
  threshold word and selects between the one word and the zero word: the adjacency.  Its row sums
  0 + Σ_d A c d are the degrees, 1 / sqrt of those the inverse square roots, and the two broadcasts followed
  by two products give (A c d · dinv c) · dinv d, the normalised Laplacian.  Each layer is then the contraction
  of the Laplacian with the features over the node axis, the contraction of that with the reshaped weights over
  the feature axis, the broadcast scalar bias added, and the clip below at zero.

  Nothing about finiteness is used: a sum over one term is that term, the zero word is 0 and 0 + s = s for the
  initial value of the two row sums, and every pointwise operation is the extended-real one by definition.
  The three literal words stay unevaluated everywhere else.
-/
import proofs.«162113_j20693152432864_1_alg».proof.Proof.Gen.ReferenceIdeal.Read
import proofs.«162113_j20693152432864_1_alg».proof.Proof.Spec
import Idealize.ShloMosaic.Lib.ValueIdx
import Idealize.ShloMosaic.PureOps.Ideal.Laws

noncomputable section

namespace Cert.Gcn.RefValue

open Idealize.ShloMosaic Idealize.ShloMosaic.ValueIdx Cert.ReferenceIdeal Cert.ReferenceIdeal.Read

/-! ### The index maps of the program, at coordinates -/

theorem idx_v1 (b : Fin 8) (c : Fin 2048) (k : Fin 512) : idx_main_v1 (ix2 b c) k = ix3 b c k :=
  funext fun a => Fin.ext (by match a with | ⟨0, _⟩ => rfl | ⟨1, _⟩ => rfl | ⟨2, _⟩ => rfl)

theorem idx_v2 (b : Fin 8) (c : Fin 2048) (z : Fin 1) : idx_main_v2 (ix3 b c z) = ix2 b c :=
  funext fun a => Fin.ext (by match a with | ⟨0, _⟩ => rfl | ⟨1, _⟩ => rfl)

theorem lidx_v4 (b : Fin 8) (c d : Fin 2048) (k : Fin 1) : lidx_main_v4 (ix3 b c d) k = ix3 b c k :=
  funext fun a => Fin.ext (by match a with | ⟨0, _⟩ => rfl | ⟨1, _⟩ => rfl | ⟨2, _⟩ => rfl)

theorem ridx_v4 (b : Fin 8) (c d : Fin 2048) (k : Fin 1) : ridx_main_v4 (ix3 b c d) k = ix3 b d k :=
  funext fun a => Fin.ext (by match a with | ⟨0, _⟩ => rfl | ⟨1, _⟩ => rfl | ⟨2, _⟩ => rfl)

theorem lidx_v5 (b : Fin 8) (c d : Fin 2048) (k : Fin 512) : lidx_main_v5 (ix3 b c d) k = ix3 b c k :=
  funext fun a => Fin.ext (by match a with | ⟨0, _⟩ => rfl | ⟨1, _⟩ => rfl | ⟨2, _⟩ => rfl)

theorem ridx_v5 (b : Fin 8) (c d : Fin 2048) (k : Fin 512) : ridx_main_v5 (ix3 b c d) k = ix3 b d k :=
  funext fun a => Fin.ext (by match a with | ⟨0, _⟩ => rfl | ⟨1, _⟩ => rfl | ⟨2, _⟩ => rfl)

theorem idx_v12 (b : Fin 8) (c : Fin 2048) (k : Fin 2048) : idx_main_v12 (ix2 b c) k = ix3 b c k :=
  funext fun a => Fin.ext (by match a with | ⟨0, _⟩ => rfl | ⟨1, _⟩ => rfl | ⟨2, _⟩ => rfl)

theorem idx_v16 (b : Fin 8) (c : Fin 2048) (z : Fin 1) : idx_main_v16 (ix3 b c z) = ix2 b c :=
  funext fun a => Fin.ext (by match a with | ⟨0, _⟩ => rfl | ⟨1, _⟩ => rfl)

theorem idx_v18 (b : Fin 8) (c d : Fin 2048) : idx_main_v18 (ix3 b c d) = ix3 b c (0 : Fin 1) :=
  funext fun a => Fin.ext (by match a with | ⟨0, _⟩ => rfl | ⟨1, _⟩ => rfl | ⟨2, _⟩ => rfl)

theorem idx_v20 (b : Fin 8) (z : Fin 1) (d : Fin 2048) : idx_main_v20 (ix3 b z d) = ix2 b d :=
  funext fun a => Fin.ext (by match a with | ⟨0, _⟩ => rfl | ⟨1, _⟩ => rfl)

theorem idx_v21 (b : Fin 8) (c d : Fin 2048) : idx_main_v21 (ix3 b c d) = ix3 b (0 : Fin 1) d :=
  funext fun a => Fin.ext (by match a with | ⟨0, _⟩ => rfl | ⟨1, _⟩ => rfl | ⟨2, _⟩ => rfl)

theorem lidx_v23 (b : Fin 8) (c : Fin 2048) (f : Fin 512) (k : Fin 2048) : lidx_main_v23 (ix3 b c f) k = ix3 b c k :=
  funext fun a => Fin.ext (by match a with | ⟨0, _⟩ => rfl | ⟨1, _⟩ => rfl | ⟨2, _⟩ => rfl)

theorem ridx_v23 (b : Fin 8) (c : Fin 2048) (f : Fin 512) (k : Fin 2048) : ridx_main_v23 (ix3 b c f) k = ix3 b k f :=
  funext fun a => Fin.ext (by match a with | ⟨0, _⟩ => rfl | ⟨1, _⟩ => rfl | ⟨2, _⟩ => rfl)

/-- The reshape of the weights drops the leading axis of length one: (e · 512 + g) / 512 mod 512 = e and
    (e · 512 + g) mod 512 = g for e, g below 512. -/
theorem idx_v24 (e g : Fin 512) : idx_main_v24 (ix2 e g) = ix3 (0 : Fin 1) e g :=
  funext fun a => Fin.ext (by
    match a with
    | ⟨0, _⟩ => rfl
    | ⟨1, _⟩ => have he : e.val < 512 := e.isLt; have hg : g.val < 512 := g.isLt; show (e.val * 512 + g.val) / 512 % 512 = e.val; omega
    | ⟨2, _⟩ => have he : e.val < 512 := e.isLt; have hg : g.val < 512 := g.isLt; show (e.val * 512 + g.val) % 512 = g.val; omega)

theorem lidx_v25 (b : Fin 8) (c : Fin 2048) (g : Fin 512) (k : Fin 512) : lidx_main_v25 (ix3 b c g) k = ix3 b c k :=
  funext fun a => Fin.ext (by match a with | ⟨0, _⟩ => rfl | ⟨1, _⟩ => rfl | ⟨2, _⟩ => rfl)

theorem ridx_v25 (b : Fin 8) (c : Fin 2048) (g : Fin 512) (k : Fin 512) : ridx_main_v25 (ix3 b c g) k = ix2 k g :=
  funext fun a => Fin.ext (by match a with | ⟨0, _⟩ => rfl | ⟨1, _⟩ => rfl)

theorem idx_v26 (j : S1x1x1.Idx) : idx_main_v26 j = ix1 (0 : Fin 1) :=
  funext fun a => Fin.ext (by match a with | ⟨0, _⟩ => rfl)

theorem lidx_v30 (b : Fin 8) (c : Fin 2048) (f : Fin 512) (k : Fin 2048) : lidx_main_v30 (ix3 b c f) k = ix3 b c k :=
  funext fun a => Fin.ext (by match a with | ⟨0, _⟩ => rfl | ⟨1, _⟩ => rfl | ⟨2, _⟩ => rfl)

theorem ridx_v30 (b : Fin 8) (c : Fin 2048) (f : Fin 512) (k : Fin 2048) : ridx_main_v30 (ix3 b c f) k = ix3 b k f :=
  funext fun a => Fin.ext (by match a with | ⟨0, _⟩ => rfl | ⟨1, _⟩ => rfl | ⟨2, _⟩ => rfl)

theorem idx_v31 (e g : Fin 512) : idx_main_v31 (ix2 e g) = ix3 (0 : Fin 1) e g :=
  funext fun a => Fin.ext (by
    match a with
    | ⟨0, _⟩ => rfl
    | ⟨1, _⟩ => have he : e.val < 512 := e.isLt; have hg : g.val < 512 := g.isLt; show (e.val * 512 + g.val) / 512 % 512 = e.val; omega
    | ⟨2, _⟩ => have he : e.val < 512 := e.isLt; have hg : g.val < 512 := g.isLt; show (e.val * 512 + g.val) % 512 = g.val; omega)

theorem lidx_v32 (b : Fin 8) (c : Fin 2048) (g : Fin 512) (k : Fin 512) : lidx_main_v32 (ix3 b c g) k = ix3 b c k :=
  funext fun a => Fin.ext (by match a with | ⟨0, _⟩ => rfl | ⟨1, _⟩ => rfl | ⟨2, _⟩ => rfl)

theorem ridx_v32 (b : Fin 8) (c : Fin 2048) (g : Fin 512) (k : Fin 512) : ridx_main_v32 (ix3 b c g) k = ix2 k g :=
  funext fun a => Fin.ext (by match a with | ⟨0, _⟩ => rfl | ⟨1, _⟩ => rfl)

theorem idx_v33 (j : S1x1x1.Idx) : idx_main_v33 j = ix1 (0 : Fin 1) :=
  funext fun a => Fin.ext (by match a with | ⟨0, _⟩ => rfl)

/-! ### The stages, at coordinates -/

/-- The features of batch entry b as a matrix. -/
abbrev row (x0 : (⟨S8x2048x512, .f32⟩ : BufTy).Contents (Elt Ideal)) (b : Fin 8) : Fin 2048 → Fin 512 → EReal :=
  fun c f => x0 (ix3 b c f)

variable (x0 : (⟨S8x2048x512, .f32⟩ : BufTy).Contents (Elt Ideal))

/-- The first row sum: 0 + Σ_f X c f · X c f, and the zero word is 0. -/
theorem v1_at (b : Fin 8) (c : Fin 2048) :
    val_main_v1 (F := Ideal) x0 (ix2 b c) = ∑ f : Fin 512, row x0 b c f * row x0 b c f := by
  rw [val_main_v1_apply, val_main_cst_apply, Ideal.ofBits_def, Ideal.ofBits_zero_f32, zero_add]
  refine Finset.sum_congr rfl fun k _ => ?_
  rw [val_main_v0_apply, idx_v1, Ideal.mulf_def]

/-- The norms, as an array with a last axis of length one. -/
theorem v3_at (b : Fin 8) (c : Fin 2048) (z : Fin 1) :
    val_main_v3 (F := Ideal) x0 (ix3 b c z) = Spec.nrm (row x0 b) c := by
  rw [val_main_v3_apply, val_main_v2_apply, idx_v2, v1_at, Ideal.hostUnary_sqrt_def]
  rfl

/-- The contraction over the axis of length one: the product of the two norms. -/
theorem v4_at (b : Fin 8) (c d : Fin 2048) :
    val_main_v4 (F := Ideal) x0 (ix3 b c d) = Spec.nrm (row x0 b) c * Spec.nrm (row x0 b) d := by
  rw [val_main_v4_apply, Fin.sum_univ_one, lidx_v4, ridx_v4, v3_at, v3_at]

/-- The Gram matrix. -/
theorem v5_at (b : Fin 8) (c d : Fin 2048) :
    val_main_v5 (F := Ideal) x0 (ix3 b c d) = ∑ f : Fin 512, row x0 b c f * row x0 b d f := by
  rw [val_main_v5_apply]
  refine Finset.sum_congr rfl fun k _ => ?_
  rw [lidx_v5, ridx_v5]

/-- The adjacency: quotient, clip, comparison with the threshold word, selection of the one or the zero word. -/
theorem v10_at (b : Fin 8) (c d : Fin 2048) :
    val_main_v10 (F := Ideal) x0 (ix3 b c d) = Spec.adj (row x0 b) c d := by
  rw [val_main_v10_apply, val_main_v9_apply, val_main_v7_apply, val_main_v6_apply, v5_at, v4_at,
    val_main_call0_v0_apply, val_main_call0_cst_apply, val_main_v8_apply, val_main_cst_0_apply,
    val_main_call1_v0_apply, val_main_cst_1_apply, val_main_call1_v1_apply, val_main_cst_2_apply]
  rfl

/-- The degree: 0 + Σ_d A c d, and the zero word is 0. -/
theorem v12_at (b : Fin 8) (c : Fin 2048) :
    val_main_v12 (F := Ideal) x0 (ix2 b c) = Spec.deg (row x0 b) c := by
  rw [val_main_v12_apply, val_main_cst_3_apply, Ideal.ofBits_def, Ideal.ofBits_zero_f32, zero_add]
  unfold Spec.deg
  refine Finset.sum_congr rfl fun k _ => ?_
  rw [val_main_v11_apply, idx_v12, v10_at]

/-- The one word over the square root of the degree. -/
theorem v15_at (b : Fin 8) (c : Fin 2048) :
    val_main_v15 (F := Ideal) x0 (ix2 b c) = Spec.dinv (row x0 b) c := by
  rw [val_main_v15_apply, val_main_v14_apply, val_main_cst_4_apply, val_main_v13_apply, v12_at]
  rfl

/-- The Laplacian, associated as (A c d · dinv c) · dinv d: the first factor is broadcast along d, the second along c. -/
theorem v22_at (b : Fin 8) (c d : Fin 2048) :
    val_main_v22 (F := Ideal) x0 (ix3 b c d) = Spec.lap (row x0 b) c d := by
  rw [val_main_v22_apply, val_main_v19_apply, val_main_v17_apply, v10_at, val_main_v18_apply, idx_v18,
    val_main_v16_apply, idx_v16, v15_at, val_main_v21_apply, idx_v21, val_main_v20_apply, idx_v20, v15_at]
  rfl

/-- Propagation of the features along the graph: Σ_d lap c d · X d f. -/
theorem v23_at (b : Fin 8) (c : Fin 2048) (f : Fin 512) :
    val_main_v23 (F := Ideal) x0 (ix3 b c f) = ∑ d : Fin 2048, Spec.lap (row x0 b) c d * row x0 b d f := by
  rw [val_main_v23_apply]
  refine Finset.sum_congr rfl fun k _ => ?_
  rw [lidx_v23, ridx_v23, v22_at]

/-- A weight array without its leading axis of length one. -/
abbrev wmat (w : (⟨S1x512x512, .f32⟩ : BufTy).Contents (Elt Ideal)) : Fin 512 → Fin 512 → EReal :=
  fun e f => w (ix3 (0 : Fin 1) e f)

/-- The one entry of a bias array. -/
abbrev bias (v : (⟨S1, .f32⟩ : BufTy).Contents (Elt Ideal)) : EReal := v (ix1 (0 : Fin 1))

variable (x1 : (⟨S1x512x512, .f32⟩ : BufTy).Contents (Elt Ideal)) (x2 : (⟨S1, .f32⟩ : BufTy).Contents (Elt Ideal))

/-- The reshaped first weights. -/
theorem v24_at (e g : Fin 512) : val_main_v24 (F := Ideal) x1 (ix2 e g) = wmat x1 e g := by
  rw [val_main_v24_apply, idx_v24]

/-- The dense map of the first layer: Σ_f (lap · X) c f · W1 f g. -/
theorem v25_at (b : Fin 8) (c : Fin 2048) (g : Fin 512) :
    val_main_v25 (F := Ideal) x0 x1 (ix3 b c g)
      = ∑ f : Fin 512, (∑ d : Fin 2048, Spec.lap (row x0 b) c d * row x0 b d f) * wmat x1 f g := by
  rw [val_main_v25_apply]
  refine Finset.sum_congr rfl fun k _ => ?_
  rw [lidx_v25, ridx_v25, v23_at, v24_at]

/-- The first bias, broadcast to every index. -/
theorem v27_at (b : Fin 8) (c : Fin 2048) (g : Fin 512) : val_main_v27 (F := Ideal) x2 (ix3 b c g) = bias x2 := by
  rw [val_main_v27_apply, val_main_v26_apply, idx_v26]

/-- The first layer: the dense map plus the bias, clipped below at the zero word. -/
theorem v29_at (b : Fin 8) (c : Fin 2048) (g : Fin 512) :
    val_main_v29 (F := Ideal) x0 x1 x2 (ix3 b c g) = Spec.layer (row x0 b) (row x0 b) (wmat x1) (bias x2) c g := by
  rw [val_main_v29_apply, val_main_v28_apply, v25_at, v27_at, val_main_call2_v0_apply, val_main_call2_cst_apply]
  rfl

/-- Propagation of the first layer's result along the graph. -/
theorem v30_at (b : Fin 8) (c : Fin 2048) (f : Fin 512) :
    val_main_v30 (F := Ideal) x0 x1 x2 (ix3 b c f)
      = ∑ d : Fin 2048, Spec.lap (row x0 b) c d * Spec.layer (row x0 b) (row x0 b) (wmat x1) (bias x2) d f := by
  rw [val_main_v30_apply]
  refine Finset.sum_congr rfl fun k _ => ?_
  rw [lidx_v30, ridx_v30, v22_at, v29_at]

variable (x3 : (⟨S1x512x512, .f32⟩ : BufTy).Contents (Elt Ideal)) (x4 : (⟨S1, .f32⟩ : BufTy).Contents (Elt Ideal))

/-- The reshaped second weights. -/
theorem v31_at (e g : Fin 512) : val_main_v31 (F := Ideal) x3 (ix2 e g) = wmat x3 e g := by
  rw [val_main_v31_apply, idx_v31]

/-- The dense map of the second layer. -/
theorem v32_at (b : Fin 8) (c : Fin 2048) (g : Fin 512) :
    val_main_v32 (F := Ideal) x0 x1 x2 x3 (ix3 b c g)
      = ∑ f : Fin 512, (∑ d : Fin 2048, Spec.lap (row x0 b) c d * Spec.layer (row x0 b) (row x0 b) (wmat x1) (bias x2) d f) * wmat x3 f g := by
  rw [val_main_v32_apply]
  refine Finset.sum_congr rfl fun k _ => ?_
  rw [lidx_v32, ridx_v32, v30_at, v31_at]

/-- The second bias, broadcast to every index. -/
theorem v34_at (b : Fin 8) (c : Fin 2048) (g : Fin 512) : val_main_v34 (F := Ideal) x4 (ix3 b c g) = bias x4 := by
  rw [val_main_v34_apply, val_main_v33_apply, idx_v33]

/-- The second layer on top of the first: the result at (b, c, g). -/
theorem v36_at (b : Fin 8) (c : Fin 2048) (g : Fin 512) :
    val_main_v36 (F := Ideal) x0 x1 x2 x3 x4 (ix3 b c g)
      = Spec.out (row x0 b) (wmat x1) (bias x2) (wmat x3) (bias x4) c g := by
  rw [val_main_v36_apply, val_main_v35_apply, v32_at, v34_at, val_main_call3_v0_apply, val_main_call3_cst_apply]
  rfl

/-- The reference program's result is the graph convolution G of its five arguments. -/
theorem ref_eq (x0 : (⟨Cert.ReferenceIdeal.S8x2048x512, .f32⟩ : BufTy).Contents (Elt Ideal)) (x1 : (⟨Cert.ReferenceIdeal.S1x512x512, .f32⟩ : BufTy).Contents (Elt Ideal)) (x2 : (⟨Cert.ReferenceIdeal.S1, .f32⟩ : BufTy).Contents (Elt Ideal)) (x3 : (⟨Cert.ReferenceIdeal.S1x512x512, .f32⟩ : BufTy).Contents (Elt Ideal)) (x4 : (⟨Cert.ReferenceIdeal.S1, .f32⟩ : BufTy).Contents (Elt Ideal)) :
    Cert.ReferenceIdeal.Read.val_main_v36 (F := Ideal) x0 x1 x2 x3 x4 = Cert.Gcn.Spec.G x0 x1 x2 x3 x4 := by
  funext i
  obtain ⟨b, c, g, rfl⟩ : ∃ (b : Fin 8) (c : Fin 2048) (g : Fin 512), i = ix3 b c g := ⟨i 0, i 1, i 2, eq_ix3 i⟩
  exact v36_at x0 x1 x2 x3 x4 b c g

end Cert.Gcn.RefValue

end
-- ==== Proof.lean ====
/-
  The claims of this certificate.

  Both programs compute, for each of the eight batch entries, the two-layer graph convolution of Spec.lean:
  the adjacency is 1 where the clipped cosine correlation of two feature rows exceeds the threshold word, the
  normalised Laplacian is A c d · dinv c · dinv d with dinv = 1 / sqrt (degree), and a layer is
  max (Σ_f (Σ_d lap c d · h d f) · W f g + b) 0.

  The kernel at the extended reals leaves in its output array the function G of its five argument arrays
  (each grid point writes the restriction of G to its own slab, and the slabs tile the array); the reference at
  the extended reals returns the same function G of its arguments, operation by operation.  From memories
  that agree on the arguments the two results are therefore one term.  The idealization rewrote no operation,
  so there is nothing to preserve; the three frame claims are the runs themselves.
-/
import proofs.«162113_j20693152432864_1_alg».proof.Defs
import proofs.«162113_j20693152432864_1_alg».proof.Proof.Gen.Kernel
import proofs.«162113_j20693152432864_1_alg».proof.Proof.Gen.Kernel.Skeleton
import proofs.«162113_j20693152432864_1_alg».proof.Proof.Gen.Kernel.Launch
import proofs.«162113_j20693152432864_1_alg».proof.Proof.Gen.Kernel.Points
import proofs.«162113_j20693152432864_1_alg».proof.Proof.Gen.Kernel.Frame
import proofs.«162113_j20693152432864_1_alg».proof.Proof.Gen.KernelIdeal
import proofs.«162113_j20693152432864_1_alg».proof.Proof.Gen.KernelIdeal.Skeleton
import proofs.«162113_j20693152432864_1_alg».proof.Proof.Gen.KernelIdeal.Launch
import proofs.«162113_j20693152432864_1_alg».proof.Proof.Gen.KernelIdeal.Points
import proofs.«162113_j20693152432864_1_alg».proof.Proof.Gen.KernelIdeal.Frame
import proofs.«162113_j20693152432864_1_alg».proof.Proof.Gen.ReferenceIdeal
import proofs.«162113_j20693152432864_1_alg».proof.Proof.Gen.Pre_finite_inputs
import proofs.«162113_j20693152432864_1_alg».proof.Proof.Gen.KernelIdeal.Value
import proofs.«162113_j20693152432864_1_alg».proof.Proof.Gen.ReferenceIdeal.Run
import proofs.«162113_j20693152432864_1_alg».proof.Proof.Gen.ReferenceIdeal.Read
import proofs.«162113_j20693152432864_1_alg».proof.Proof.KernelValue
import proofs.«162113_j20693152432864_1_alg».proof.Proof.RefIsSpec
import Idealize.ShloMosaic.Adequacy
import Idealize.ShloMosaic.Init

noncomputable section

namespace Cert.Proof

open Idealize.ShloMosaic Idealize.SL.Sem Cert.Kernel

/-- The kernel runs and leaves its arguments unchanged. -/
theorem frame_kernel : Cert.frame_Kernel := fun m ρ _ => Cert.Kernel.Gen.frame m ρ

/-- So does the kernel at the extended reals. -/
theorem frame_kernelIdeal : Cert.frame_KernelIdeal := fun m ρ _ => Cert.KernelIdeal.Gen.frame m ρ

/-- The reference runs and leaves its arguments unchanged: its run, without the result's conjunct. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals the kernel's output array ends at G of its arguments and the reference's result is G of
    its arguments; the arguments agree, so the two are one term. -/
theorem algebraic : Cert.algebraic_KernelIdeal_ReferenceIdeal := by
  intro m ρ m' ρ' _ hagree
  refine ⟨_, Cert.Gcn.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.Gcn.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
